-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S56x56x64 .f32
  ∧ IdealRules.sign_bit.Statement Cert.KernelIdeal.S56x56x64 .f32
  ∧ IdealRules.sign_bit.Statement Cert.KernelIdeal.S56x56x64 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x56x56 : Shape := ⟨4, ![4, 64, 56, 56]⟩
abbrev S64x3x3x64 : Shape := ⟨4, ![64, 3, 3, 64]⟩
abbrev S_ : Shape := ⟨0, ![]⟩

class Facts : Prop where
  bcast_S_S4x64x56x56 : S_.BroadcastsInDim S4x64x56x56 (![] : Fin 0 → Fin S4x64x56x56.rank)
  reducesTo_S4x64x56x56_S_d0_1_2_3 : S4x64x56x56.ReducesTo [0, 1, 2, 3] S_
  h_S_ : 0 < S_.numel
  bcast_S_S64x3x3x64 : S_.BroadcastsInDim S64x3x3x64 (![] : Fin 0 → Fin S64x3x3x64.rank)
  reducesTo_S64x3x3x64_S_d0_1_2_3 : S64x3x3x64.ReducesTo [0, 1, 2, 3] S_

variable [Facts]

def fn {F : FTy → Type} [FloatOps F] (main_arg0 : FVec F S4x64x56x56 .f32) (main_arg1 : FVec F S64x3x3x64 .f32) : IVec S_ 1 :=
  let main_v0 : FVec F S4x64x56x56 .f32 := Host.absf main_arg0
  let main_cst : FVec F S_ .f32 := constant S_ .f32 0x7F800000#32
  let main_v1 : FVec F S4x64x56x56 .f32 := broadcastInDim S4x64x56x56 ![] bcast_S_S4x64x56x56 main_cst
  let main_v2 : IVec S4x64x56x56 1 := cmpf .olt main_v0 main_v1
  let main_c : IVec S_ 1 := constantI S_ 1 1#1
  let main_v3 : IVec S_ 1 := (fun x v => Host.reduce IntOp.andi x v reducesTo_S4x64x56x56_S_d0_1_2_3 h_S_) main_v2 main_c
  let main_v4 : FVec F S64x3x3x64 .f32 := Host.absf main_arg1
  let main_cst_0 : FVec F S_ .f32 := constant S_ .f32 0x7F800000#32
  let main_v5 : FVec F S64x3x3x64 .f32 := broadcastInDim S64x3x3x64 ![] bcast_S_S64x3x3x64 main_cst_0
  let main_v6 : IVec S64x3x3x64 1 := cmpf .olt main_v4 main_v5
  let main_c_1 : IVec S_ 1 := constantI S_ 1 1#1
  let main_v7 : IVec S_ 1 := (fun x v => Host.reduce IntOp.andi x v reducesTo_S64x3x3x64_S_d0_1_2_3 h_S_) main_v6 main_c_1
  let main_v8 : IVec S_ 1 := andi main_v3 main_v7
  main_v8
-- ==== Kernel.lean ====
abbrev S4x64x56x56 : Shape := ⟨4, ![4, 64, 56, 56]⟩
abbrev S64x3x3x64 : Shape := ⟨4, ![64, 3, 3, 64]⟩
abbrev S4x56x56x64 : Shape := ⟨4, ![4, 56, 56, 64]⟩
abbrev S_ : Shape := ⟨0, ![]⟩
abbrev S4x58x58x64 : Shape := ⟨4, ![4, 58, 58, 64]⟩
abbrev S1x58x58x64 : Shape := ⟨4, ![1, 58, 58, 64]⟩
abbrev S16x3x3x64 : Shape := ⟨4, ![16, 3, 3, 64]⟩
abbrev S1x16x56x56 : Shape := ⟨4, ![1, 16, 56, 56]⟩
abbrev S1x56x56x64 : Shape := ⟨4, ![1, 56, 56, 64]⟩
abbrev S56x56x64 : Shape := ⟨3, ![56, 56, 64]⟩
abbrev S56x56 : Shape := ⟨2, ![56, 56]⟩
abbrev S1x1x1x64 : Shape := ⟨4, ![1, 1, 1, 64]⟩
abbrev S64 : Shape := ⟨1, ![64]⟩
abbrev S1x1x64 : Shape := ⟨3, ![1, 1, 64]⟩
abbrev S1x1x56x56 : Shape := ⟨4, ![1, 1, 56, 56]⟩

abbrev nBuf : Space → Nat
  | .hbm => 7
  | .vmem => 6
  | .smem => 0
  | _ => 0

abbrev bufTy : (tb : Table) → Fin (tcTables nBuf tb) → BufTy
  | .hbm, ⟨0, _⟩ => ⟨S4x64x56x56, .f32⟩
  | .hbm, ⟨1, _⟩ => ⟨S64x3x3x64, .f32⟩
  | .hbm, ⟨2, _⟩ => ⟨S4x56x56x64, .f32⟩
  | .hbm, ⟨3, _⟩ => ⟨S_, .i32⟩
  | .hbm, ⟨4, _⟩ => ⟨S_, .f32⟩
  | .hbm, ⟨5, _⟩ => ⟨S4x58x58x64, .f32⟩
  | .hbm, ⟨6, _⟩ => ⟨S4x64x56x56, .f32⟩
  | .local _ .vmem, ⟨0, _⟩ => ⟨S1x58x58x64, .f32⟩
  | .local _ .vmem, ⟨1, _⟩ => ⟨S1x58x58x64, .f32⟩
  | .local _ .vmem, ⟨2, _⟩ => ⟨S16x3x3x64, .f32⟩
  | .local _ .vmem, ⟨3, _⟩ => ⟨S16x3x3x64, .f32⟩
  | .local _ .vmem, ⟨4, _⟩ => ⟨S1x16x56x56, .f32⟩
  | .local _ .vmem, ⟨5, _⟩ => ⟨S1x16x56x56, .f32⟩
  | _, _ => ⟨S4x64x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨2, ![4, 4], ![false, false]⟩

@[reducible] def k0_t1_loop : Scf.Loop 32 :=
  let c0_i32 : BitVec 32 := 0#32
  let c16_i32 : BitVec 32 := 16#32
  let v18 : BitVec 32 := Scalar.addi c0_i32 c16_i32
  let c1_i32 : BitVec 32 := 1#32
  ⟨c0_i32, v18, c1_i32⟩
def k0_off1 (k0_t1 : Fin k0_t1_loop.trips) : Fin 4 → Nat :=
  let c0_i32 : BitVec 32 := 0#32
  let c1_i32 : BitVec 32 := 1#32
  let arg5 : BitVec 32 := Scf.iv c0_i32 c1_i32 k0_t1
  let v21 : Index := Scalar.indexCast arg5
  let c0_35 : Index := 0#32
  let c0_36 : Index := 0#32
  let c0_37 : Index := 0#32
  ![v21.toNat, 0, 0, 0]
def k0_off2 (k0_t1 : Fin k0_t1_loop.trips) : Fin 4 → Nat :=
  let c0_i32 : BitVec 32 := 0#32
  let c1_i32 : BitVec 32 := 1#32
  let arg5 : BitVec 32 := Scf.iv c0_i32 c1_i32 k0_t1
  let v28 : Index := Scalar.indexCast arg5
  let c1_38 : Index := 1#32
  let c0_39 : Index := 0#32
  let c0_40 : Index := 0#32
  ![v28.toNat, 1, 0, 0]
def k0_off3 (k0_t1 : Fin k0_t1_loop.trips) : Fin 4 → Nat :=
  let c0_i32 : BitVec 32 := 0#32
  let c1_i32 : BitVec 32 := 1#32
  let arg5 : BitVec 32 := Scf.iv c0_i32 c1_i32 k0_t1
  let v35 : Index := Scalar.indexCast arg5
  let c2_41 : Index := 2#32
  let c0_42 : Index := 0#32
  let c0_43 : Index := 0#32
  ![v35.toNat, 2, 0, 0]
def k0_off4 (k0_t1 : Fin k0_t1_loop.trips) : Fin 4 → Nat :=
  let c0_i32 : BitVec 32 := 0#32
  let c1_i32 : BitVec 32 := 1#32
  let arg5 : BitVec 32 := Scf.iv c0_i32 c1_i32 k0_t1
  let v55 : Index := Scalar.indexCast arg5
  let c0_47 : Index := 0#32
  let c1_48 : Index := 1#32
  let c0_49 : Index := 0#32
  ![v55.toNat, 0, 1, 0]
def k0_off5 (k0_t1 : Fin k0_t1_loop.trips) : Fin 4 → Nat :=
  let c0_i32 : BitVec 32 := 0#32
  let c1_i32 : BitVec 32 := 1#32
  let arg5 : BitVec 32 := Scf.iv c0_i32 c1_i32 k0_t1
  let v62 : Index := Scalar.indexCast arg5
  let c1_50 : Index := 1#32
  let c1_51 : Index := 1#32
  let c0_52 : Index := 0#32
  ![v62.toNat, 1, 1, 0]
def k0_off6 (k0_t1 : Fin k0_t1_loop.trips) : Fin 4 → Nat :=
  let c0_i32 : BitVec 32 := 0#32
  let c1_i32 : BitVec 32 := 1#32
  let arg5 : BitVec 32 := Scf.iv c0_i32 c1_i32 k0_t1
  let v69 : Index := Scalar.indexCast arg5
  let c2_53 : Index := 2#32
  let c1_54 : Index := 1#32
  let c0_55 : Index := 0#32
  ![v69.toNat, 2, 1, 0]
def k0_off7 (k0_t1 : Fin k0_t1_loop.trips) : Fin 4 → Nat :=
  let c0_i32 : BitVec 32 := 0#32
  let c1_i32 : BitVec 32 := 1#32
  let arg5 : BitVec 32 := Scf.iv c0_i32 c1_i32 k0_t1
  let v89 : Index := Scalar.indexCast arg5
  let c0_61 : Index := 0#32
  let c2_62 : Index := 2#32
  let c0_63 : Index := 0#32
  ![v89.toNat, 0, 2, 0]
def k0_off8 (k0_t1 : Fin k0_t1_loop.trips) : Fin 4 → Nat :=
  let c0_i32 : BitVec 32 := 0#32
  let c1_i32 : BitVec 32 := 1#32
  let arg5 : BitVec 32 := Scf.iv c0_i32 c1_i32 k0_t1
  let v96 : Index := Scalar.indexCast arg5
  let c1_64 : Index := 1#32
  let c2_65 : Index := 2#32
  let c0_66 : Index := 0#32
  ![v96.toNat, 1, 2, 0]
def k0_off9 (k0_t1 : Fin k0_t1_loop.trips) : Fin 4 → Nat :=
  let c0_i32 : BitVec 32 := 0#32
  let c1_i32 : BitVec 32 := 1#32
  let arg5 : BitVec 32 := Scf.iv c0_i32 c1_i32 k0_t1
  let v103 : Index := Scalar.indexCast arg5
  let c2_67 : Index := 2#32
  let c2_68 : Index := 2#32
  let c0_69 : Index := 0#32
  ![v103.toNat, 2, 2, 0]
def k0_off10 (k0_t1 : Fin k0_t1_loop.trips) : Fin 4 → Nat :=
  let c0_74 : Index := 0#32
  let c0_i32 : BitVec 32 := 0#32
  let c1_i32 : BitVec 32 := 1#32
  let arg5 : BitVec 32 := Scf.iv c0_i32 c1_i32 k0_t1
  let v122 : Index := Scalar.indexCast arg5
  let c0_75 : Index := 0#32
  let c0_76 : Index := 0#32
  ![0, v122.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x58x58x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x3x3x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x16x56x56 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S4x64x56x56_S4x56x56x64_0_2_3_1 : S4x64x56x56.Transposes [0, 2, 3, 1] S4x56x56x64
  pads_S4x56x56x64_S4x58x58x64_000_110_110_000 : S4x56x56x64.Pads (![0, 1, 1, 0] : Fin 4 → Nat) ![0, 1, 1, 0] ![0, 0, 0, 0] S4x58x58x64
  h_S_ : 0 < S_.numel
  inb_S1x58x58x64_S1x56x56x64_0_0_0_0 : ∀ a, (![0, 0, 0, 0] : Fin 4 → Nat) a + S1x56x56x64.size a ≤ S1x58x58x64.size a
  h_S1x56x56x64 : 0 < S1x56x56x64.numel
  shapeCasts_S1x56x56x64_S56x56x64 : S1x56x56x64.ShapeCasts S56x56x64
  inb_S1x58x58x64_S1x56x56x64_0_0_1_0 : ∀ a, (![0, 0, 1, 0] : Fin 4 → Nat) a + S1x56x56x64.size a ≤ S1x58x58x64.size a
  inb_S1x58x58x64_S1x56x56x64_0_0_2_0 : ∀ a, (![0, 0, 2, 0] : Fin 4 → Nat) a + S1x56x56x64.size a ≤ S1x58x58x64.size a
  inb_S1x58x58x64_S1x56x56x64_0_1_0_0 : ∀ a, (![0, 1, 0, 0] : Fin 4 → Nat) a + S1x56x56x64.size a ≤ S1x58x58x64.size a
  inb_S1x58x58x64_S1x56x56x64_0_1_1_0 : ∀ a, (![0, 1, 1, 0] : Fin 4 → Nat) a + S1x56x56x64.size a ≤ S1x58x58x64.size a
  inb_S1x58x58x64_S1x56x56x64_0_1_2_0 : ∀ a, (![0, 1, 2, 0] : Fin 4 → Nat) a + S1x56x56x64.size a ≤ S1x58x58x64.size a
  inb_S1x58x58x64_S1x56x56x64_0_2_0_0 : ∀ a, (![0, 2, 0, 0] : Fin 4 → Nat) a + S1x56x56x64.size a ≤ S1x58x58x64.size a
  inb_S1x58x58x64_S1x56x56x64_0_2_1_0 : ∀ a, (![0, 2, 1, 0] : Fin 4 → Nat) a + S1x56x56x64.size a ≤ S1x58x58x64.size a
  inb_S1x58x58x64_S1x56x56x64_0_2_2_0 : ∀ a, (![0, 2, 2, 0] : Fin 4 → Nat) a + S1x56x56x64.size a ≤ S1x58x58x64.size a
  h_S1x1x1x64 : 0 < S1x1x1x64.numel
  shapeCasts_S1x1x1x64_S64 : S1x1x1x64.ShapeCasts S64
  shapeCasts_S64_S1x1x64 : S64.ShapeCasts S1x1x64
  broadcasts_S1x1x64_S56x56x64 : S1x1x64.Broadcasts S56x56x64
  reduces_S56x56x64_S56x56 : S56x56x64.Reduces [2] S56x56
  h_S1x1x56x56 : 0 < S1x1x56x56.numel
  shapeCasts_S1x1x56x56_S56x56 : S1x1x56x56.ShapeCasts S56x56
  shapeCasts_S56x56_S1x1x56x56 : S56x56.ShapeCasts S1x1x56x56
  hrank0 : 0 < grid0.rank
  k0_t1_ok : k0_t1_loop.OK
  k0_off1_inb : ∀ k0_t1 : Fin k0_t1_loop.trips, ∀ a, (k0_off1 k0_t1) a + S1x1x1x64.size a ≤ S16x3x3x64.size a
  k0_off2_inb : ∀ k0_t1 : Fin k0_t1_loop.trips, ∀ a, (k0_off2 k0_t1) a + S1x1x1x64.size a ≤ S16x3x3x64.size a
  k0_off3_inb : ∀ k0_t1 : Fin k0_t1_loop.trips, ∀ a, (k0_off3 k0_t1) a + S1x1x1x64.size a ≤ S16x3x3x64.size a
  k0_off4_inb : ∀ k0_t1 : Fin k0_t1_loop.trips, ∀ a, (k0_off4 k0_t1) a + S1x1x1x64.size a ≤ S16x3x3x64.size a
  k0_off5_inb : ∀ k0_t1 : Fin k0_t1_loop.trips, ∀ a, (k0_off5 k0_t1) a + S1x1x1x64.size a ≤ S16x3x3x64.size a
  k0_off6_inb : ∀ k0_t1 : Fin k0_t1_loop.trips, ∀ a, (k0_off6 k0_t1) a + S1x1x1x64.size a ≤ S16x3x3x64.size a
  k0_off7_inb : ∀ k0_t1 : Fin k0_t1_loop.trips, ∀ a, (k0_off7 k0_t1) a + S1x1x1x64.size a ≤ S16x3x3x64.size a
  k0_off8_inb : ∀ k0_t1 : Fin k0_t1_loop.trips, ∀ a, (k0_off8 k0_t1) a + S1x1x1x64.size a ≤ S16x3x3x64.size a
  k0_off9_inb : ∀ k0_t1 : Fin k0_t1_loop.trips, ∀ a, (k0_off9 k0_t1) a + S1x1x1x64.size a ≤ S16x3x3x64.size a
  k0_off10_inb : ∀ k0_t1 : Fin k0_t1_loop.trips, ∀ a, (k0_off10 k0_t1) a + S1x1x56x56.size a ≤ S1x16x56x56.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x58x58x64.size a ≤ S4x58x58x64.size a
  hwx0_0 : ∀ i : grid0.Coords, EltTy.bits .f32 = 32 ∨ (Rect.block (s := S4x58x58x64) S1x58x58x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x3x3x64.size a ≤ S64x3x3x64.size a
  hwx0_1 : ∀ i : grid0.Coords, EltTy.bits .f32 = 32 ∨ (Rect.block (s := S64x3x3x64) S16x3x3x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x56x56.size a ≤ S4x64x56x56.size a
  hwx0_2 : ∀ i : grid0.Coords, EltTy.bits .f32 = 32 ∨ (Rect.block (s := S4x64x56x56) S1x16x56x56.size (cc0_transform_2 i) (hinb0_2 i)).WholeWords (EltTy.packing .f32)

variable [Facts₀]

abbrev win0_0 : Pipeline.Window sig grid0 :=
  Pipeline.Window.ofSpec (Memref.whole main_v1) S1x58x58x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x3x3x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x16x56x56.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x64x56x56 : Shape := ⟨4, ![4, 64, 56, 56]⟩
abbrev S64x3x3x64 : Shape := ⟨4, ![64, 3, 3, 64]⟩
abbrev S4x56x56x64 : Shape := ⟨4, ![4, 56, 56, 64]⟩
abbrev S_ : Shape := ⟨0, ![]⟩
abbrev S4x58x58x64 : Shape := ⟨4, ![4, 58, 58, 64]⟩
abbrev S4x56x56x64x64 : Shape := ⟨5, ![4, 56, 56, 64, 64]⟩
abbrev S4x56x56x1x64 : Shape := ⟨5, ![4, 56, 56, 1, 64]⟩
abbrev S64x1x1x64 : Shape := ⟨4, ![64, 1, 1, 64]⟩
abbrev S64x64 : Shape := ⟨2, ![64, 64]⟩
abbrev S1x1x1x64x64 : Shape := ⟨5, ![1, 1, 1, 64, 64]⟩

abbrev nBuf : Space → Nat
  | .hbm => 108
  | .vmem => 0
  | .smem => 0
  | _ => 0

abbrev bufTy : (tb : Table) → Fin (tcTables nBuf tb) → BufTy
  | .hbm, ⟨0, _⟩ => ⟨S4x64x56x56, .f32⟩
  | .hbm, ⟨1, _⟩ => ⟨S64x3x3x64, .f32⟩
  | .hbm, ⟨2, _⟩ => ⟨S4x56x56x64, .f32⟩
  | .hbm, ⟨3, _⟩ => ⟨S_, .i32⟩
  | .hbm, ⟨4, _⟩ => ⟨S_, .f32⟩
  | .hbm, ⟨5, _⟩ => ⟨S4x58x58x64, .f32⟩
  | .hbm, ⟨6, _⟩ => ⟨S_, .f32⟩
  | .hbm, ⟨7, _⟩ => ⟨S4x56x56x64, .f32⟩
  | .hbm, ⟨8, _⟩ => ⟨S_, .f32⟩
  | .hbm, ⟨9, _⟩ => ⟨S4x56x56x64x64, .f32⟩
  | .hbm, ⟨10, _⟩ => ⟨S4x56x56x64, .f32⟩
  | .hbm, ⟨11, _⟩ => ⟨S4x56x56x1x64, .f32⟩
  | .hbm, ⟨12, _⟩ => ⟨S64x1x1x64, .f32⟩
  | .hbm, ⟨13, _⟩ => ⟨S64x64, .f32⟩
  | .hbm, ⟨14, _⟩ => ⟨S1x1x1x64x64, .f32⟩
  | .hbm, ⟨15, _⟩ => ⟨S4x56x56x64x64, .f32⟩
  | .hbm, ⟨16, _⟩ => ⟨S4x56x56x64x64, .f32⟩
  | .hbm, ⟨17, _⟩ => ⟨S4x56x56x64x64, .f32⟩
  | .hbm, ⟨18, _⟩ => ⟨S4x56x56x64x64, .f32⟩
  | .hbm, ⟨19, _⟩ => ⟨S4x56x56x64, .f32⟩
  | .hbm, ⟨20, _⟩ => ⟨S4x56x56x1x64, .f32⟩
  | .hbm, ⟨21, _⟩ => ⟨S64x1x1x64, .f32⟩
  | .hbm, ⟨22, _⟩ => ⟨S64x64, .f32⟩
  | .hbm, ⟨23, _⟩ => ⟨S1x1x1x64x64, .f32⟩
  | .hbm, ⟨24, _⟩ => ⟨S4x56x56x64x64, .f32⟩
  | .hbm, ⟨25, _⟩ => ⟨S4x56x56x64x64, .f32⟩
  | .hbm, ⟨26, _⟩ => ⟨S4x56x56x64x64, .f32⟩
  | .hbm, ⟨27, _⟩ => ⟨S4x56x56x64x64, .f32⟩
  | .hbm, ⟨28, _⟩ => ⟨S4x56x56x64, .f32⟩
  | .hbm, ⟨29, _⟩ => ⟨S4x56x56x1x64, .f32⟩
  | .hbm, ⟨30, _⟩ => ⟨S64x1x1x64, .f32⟩
  | .hbm, ⟨31, _⟩ => ⟨S64x64, .f32⟩
  | .hbm, ⟨32, _⟩ => ⟨S1x1x1x64x64, .f32⟩
  | .hbm, ⟨33, _⟩ => ⟨S4x56x56x64x64, .f32⟩
  | .hbm, ⟨34, _⟩ => ⟨S4x56x56x64x64, .f32⟩
  | .hbm, ⟨35, _⟩ => ⟨S4x56x56x64x64, .f32⟩
  | .hbm, ⟨36, _⟩ => ⟨S4x56x56x64x64, .f32⟩
  | .hbm, ⟨37, _⟩ => ⟨S4x56x56x64x64, .f32⟩
  | .hbm, ⟨38, _⟩ => ⟨S_, .f32⟩
  | .hbm, ⟨39, _⟩ => ⟨S4x56x56x64, .f32⟩
  | .hbm, ⟨40, _⟩ => ⟨S4x56x56x64, .f32⟩
  | .hbm, ⟨41, _⟩ => ⟨S_, .f32⟩
  | .hbm, ⟨42, _⟩ => ⟨S4x56x56x64x64, .f32⟩
  | .hbm, ⟨43, _⟩ => ⟨S4x56x56x64, .f32⟩
  | .hbm, ⟨44, _⟩ => ⟨S4x56x56x1x64, .f32⟩
  | .hbm, ⟨45, _⟩ => ⟨S64x1x1x64, .f32⟩
  | .hbm, ⟨46, _⟩ => ⟨S64x64, .f32⟩
  | .hbm, ⟨47, _⟩ => ⟨S1x1x1x64x64, .f32⟩
  | .hbm, ⟨48, _⟩ => ⟨S4x56x56x64x64, .f32⟩
  | .hbm, ⟨49, _⟩ => ⟨S4x56x56x64x64, .f32⟩
  | .hbm, ⟨50, _⟩ => ⟨S4x56x56x64x64, .f32⟩
  | .hbm, ⟨51, _⟩ => ⟨S4x56x56x64x64, .f32⟩
  | .hbm, ⟨52, _⟩ => ⟨S4x56x56x64, .f32⟩
  | .hbm, ⟨53, _⟩ => ⟨S4x56x56x1x64, .f32⟩
  | .hbm, ⟨54, _⟩ => ⟨S64x1x1x64, .f32⟩
  | .hbm, ⟨55, _⟩ => ⟨S64x64, .f32⟩
  | .hbm, ⟨56, _⟩ => ⟨S1x1x1x64x64, .f32⟩
  | .hbm, ⟨57, _⟩ => ⟨S4x56x56x64x64, .f32⟩
  | .hbm, ⟨58, _⟩ => ⟨S4x56x56x64x64, .f32⟩
  | .hbm, ⟨59, _⟩ => ⟨S4x56x56x64x64, .f32⟩
  | .hbm, ⟨60, _⟩ => ⟨S4x56x56x64x64, .f32⟩
  | .hbm, ⟨61, _⟩ => ⟨S4x56x56x64, .f32⟩
  | .hbm, ⟨62, _⟩ => ⟨S4x56x56x1x64, .f32⟩
  | .hbm, ⟨63, _⟩ => ⟨S64x1x1x64, .f32⟩
  | .hbm, ⟨64, _⟩ => ⟨S64x64, .f32⟩
  | .hbm, ⟨65, _⟩ => ⟨S1x1x1x64x64, .f32⟩
  | .hbm, ⟨66, _⟩ => ⟨S4x56x56x64x64, .f32⟩
  | .hbm, ⟨67, _⟩ => ⟨S4x56x56x64x64, .f32⟩
  | .hbm, ⟨68, _⟩ => ⟨S4x56x56x64x64, .f32⟩
  | .hbm, ⟨69, _⟩ => ⟨S4x56x56x64x64, .f32⟩
  | .hbm, ⟨70, _⟩ => ⟨S4x56x56x64x64, .f32⟩
  | .hbm, ⟨71, _⟩ => ⟨S_, .f32⟩
  | .hbm, ⟨72, _⟩ => ⟨S4x56x56x64, .f32⟩
  | .hbm, ⟨73, _⟩ => ⟨S4x56x56x64, .f32⟩
  | .hbm, ⟨74, _⟩ => ⟨S_, .f32⟩
  | .hbm, ⟨75, _⟩ => ⟨S4x56x56x64x64, .f32⟩
  | .hbm, ⟨76, _⟩ => ⟨S4x56x56x64, .f32⟩
  | .hbm, ⟨77, _⟩ => ⟨S4x56x56x1x64, .f32⟩
  | .hbm, ⟨78, _⟩ => ⟨S64x1x1x64, .f32⟩
  | .hbm, ⟨79, _⟩ => ⟨S64x64, .f32⟩
  | .hbm, ⟨80, _⟩ => ⟨S1x1x1x64x64, .f32⟩
  | .hbm, ⟨81, _⟩ => ⟨S4x56x56x64x64, .f32⟩
  | .hbm, ⟨82, _⟩ => ⟨S4x56x56x64x64, .f32⟩
  | .hbm, ⟨83, _⟩ => ⟨S4x56x56x64x64, .f32⟩
  | .hbm, ⟨84, _⟩ => ⟨S4x56x56x64x64, .f32⟩
  | .hbm, ⟨85, _⟩ => ⟨S4x56x56x64, .f32⟩
  | .hbm, ⟨86, _⟩ => ⟨S4x56x56x1x64, .f32⟩
  | .hbm, ⟨87, _⟩ => ⟨S64x1x1x64, .f32⟩
  | .hbm, ⟨88, _⟩ => ⟨S64x64, .f32⟩
  | .hbm, ⟨89, _⟩ => ⟨S1x1x1x64x64, .f32⟩
  | .hbm, ⟨90, _⟩ => ⟨S4x56x56x64x64, .f32⟩
  | .hbm, ⟨91, _⟩ => ⟨S4x56x56x64x64, .f32⟩
  | .hbm, ⟨92, _⟩ => ⟨S4x56x56x64x64, .f32⟩
  | .hbm, ⟨93, _⟩ => ⟨S4x56x56x64x64, .f32⟩
  | .hbm, ⟨94, _⟩ => ⟨S4x56x56x64, .f32⟩
  | .hbm, ⟨95, _⟩ => ⟨S4x56x56x1x64, .f32⟩
  | .hbm, ⟨96, _⟩ => ⟨S64x1x1x64, .f32⟩
  | .hbm, ⟨97, _⟩ => ⟨S64x64, .f32⟩
  | .hbm, ⟨98, _⟩ => ⟨S1x1x1x64x64, .f32⟩
  | .hbm, ⟨99, _⟩ => ⟨S4x56x56x64x64, .f32⟩
  | .hbm, ⟨100, _⟩ => ⟨S4x56x56x64x64, .f32⟩
  | .hbm, ⟨101, _⟩ => ⟨S4x56x56x64x64, .f32⟩
  | .hbm, ⟨102, _⟩ => ⟨S4x56x56x64x64, .f32⟩
  | .hbm, ⟨103, _⟩ => ⟨S4x56x56x64x64, .f32⟩
  | .hbm, ⟨104, _⟩ => ⟨S_, .f32⟩
  | .hbm, ⟨105, _⟩ => ⟨S4x56x56x64, .f32⟩
  | .hbm, ⟨106, _⟩ => ⟨S4x56x56x64, .f32⟩
  | .hbm, ⟨107, _⟩ => ⟨S4x64x56x56, .f32⟩
  | _, _ => ⟨S4x64x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_1 : Ref sig .tc := ⟨.hbm, 38, rfl⟩
abbrev main_v32 : Ref sig .tc := ⟨.hbm, 39, rfl⟩
abbrev main_v33 : Ref sig .tc := ⟨.hbm, 40, rfl⟩
abbrev main_cst_2 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_cst_3 : Ref sig .tc := ⟨.hbm, 71, rfl⟩
abbrev main_v63 : Ref sig .tc := ⟨.hbm, 72, rfl⟩
abbrev main_v64 : Ref sig .tc := ⟨.hbm, 73, rfl⟩
abbrev main_cst_4 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_cst_5 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩

abbrev nD : Nat := 1
abbrev τ : Topo := Topo.v7x

variable {F : FTy → Type} [FloatOps F]

class Facts₀ : Prop where
  transposes_S4x64x56x56_S4x56x56x64_0_2_3_1 : S4x64x56x56.Transposes [0, 2, 3, 1] S4x56x56x64
  pads_S4x56x56x64_S4x58x58x64_000_110_110_000 : S4x56x56x64.Pads (![0, 1, 1, 0] : Fin 4 → Nat) ![0, 1, 1, 0] ![0, 0, 0, 0] S4x58x58x64
  h_S_ : 0 < S_.numel
  bcast_S_S4x56x56x64 : S_.BroadcastsInDim S4x56x56x64 (![] : Fin 0 → Fin S4x56x56x64.rank)
  bcast_S_S4x56x56x64x64 : S_.BroadcastsInDim S4x56x56x64x64 (![] : Fin 0 → Fin S4x56x56x64x64.rank)
  slices_S4x58x58x64_S4x56x56x64_0_0_0_0 : S4x58x58x64.Slices ![0, 0, 0, 0] S4x56x56x64
  bcast_S4x56x56x64_S4x56x56x1x64_0_1_2_4 : S4x56x56x64.BroadcastsInDim S4x56x56x1x64 (![0, 1, 2, 4] : Fin 4 → Fin S4x56x56x1x64.rank)
  slices_S64x3x3x64_S64x1x1x64_0_0_0_0 : S64x3x3x64.Slices ![0, 0, 0, 0] S64x1x1x64
  shapeCasts_S64x1x1x64_S64x64 : S64x1x1x64.ShapeCasts S64x64
  bcast_S64x64_S1x1x1x64x64_3_4 : S64x64.BroadcastsInDim S1x1x1x64x64 (![3, 4] : Fin 2 → Fin S1x1x1x64x64.rank)
  bcast_S4x56x56x1x64_S4x56x56x64x64_0_1_2_3_4 : S4x56x56x1x64.BroadcastsInDim S4x56x56x64x64 (![0, 1, 2, 3, 4] : Fin 5 → Fin S4x56x56x64x64.rank)
  bcast_S1x1x1x64x64_S4x56x56x64x64_0_1_2_3_4 : S1x1x1x64x64.BroadcastsInDim S4x56x56x64x64 (![0, 1, 2, 3, 4] : Fin 5 → Fin S4x56x56x64x64.rank)
  slices_S4x58x58x64_S4x56x56x64_0_0_1_0 : S4x58x58x64.Slices ![0, 0, 1, 0] S4x56x56x64
  slices_S64x3x3x64_S64x1x1x64_0_1_0_0 : S64x3x3x64.Slices ![0, 1, 0, 0] S64x1x1x64
  slices_S4x58x58x64_S4x56x56x64_0_0_2_0 : S4x58x58x64.Slices ![0, 0, 2, 0] S4x56x56x64
  slices_S64x3x3x64_S64x1x1x64_0_2_0_0 : S64x3x3x64.Slices ![0, 2, 0, 0] S64x1x1x64
  reducesTo_S4x56x56x64x64_S4x56x56x64_d4 : S4x56x56x64x64.ReducesTo [4] S4x56x56x64
  slices_S4x58x58x64_S4x56x56x64_0_1_0_0 : S4x58x58x64.Slices ![0, 1, 0, 0] S4x56x56x64
  slices_S64x3x3x64_S64x1x1x64_0_0_1_0 : S64x3x3x64.Slices ![0, 0, 1, 0] S64x1x1x64
  slices_S4x58x58x64_S4x56x56x64_0_1_1_0 : S4x58x58x64.Slices ![0, 1, 1, 0] S4x56x56x64
  slices_S64x3x3x64_S64x1x1x64_0_1_1_0 : S64x3x3x64.Slices ![0, 1, 1, 0] S64x1x1x64
  slices_S4x58x58x64_S4x56x56x64_0_1_2_0 : S4x58x58x64.Slices ![0, 1, 2, 0] S4x56x56x64
  slices_S64x3x3x64_S64x1x1x64_0_2_1_0 : S64x3x3x64.Slices ![0, 2, 1, 0] S64x1x1x64
  slices_S4x58x58x64_S4x56x56x64_0_2_0_0 : S4x58x58x64.Slices ![0, 2, 0, 0] S4x56x56x64
  slices_S64x3x3x64_S64x1x1x64_0_0_2_0 : S64x3x3x64.Slices ![0, 0, 2, 0] S64x1x1x64
  slices_S4x58x58x64_S4x56x56x64_0_2_1_0 : S4x58x58x64.Slices ![0, 2, 1, 0] S4x56x56x64
  slices_S64x3x3x64_S64x1x1x64_0_1_2_0 : S64x3x3x64.Slices ![0, 1, 2, 0] S64x1x1x64
  slices_S4x58x58x64_S4x56x56x64_0_2_2_0 : S4x58x58x64.Slices ![0, 2, 2, 0] S4x56x56x64
  slices_S64x3x3x64_S64x1x1x64_0_2_2_0 : S64x3x3x64.Slices ![0, 2, 2, 0] S64x1x1x64
  transposes_S4x56x56x64_S4x64x56x56_0_3_1_2 : S4x56x56x64.Transposes [0, 3, 1, 2] S4x64x56x56

variable [Facts₀]

class Facts : Prop extends Facts₀ where

variable [Facts]
-- ==== Proof.Spec.lean ====
/-
  The specification. A "majority of three" convolution: for a zero-padded image P[b, r, s, c]
  (four images of 58 × 58 positions and 64 channels) and weights W[o, kw, kh, c], the result at
  image b, output channel o and position (h, w) is

      Σ_{kh < 3}  Σ_{c < 64}  sign ( Σ_{kw < 3}  P[b, h + kh, w + kw, c] · W[o, kw, kh, c] )

  over the extended reals: for each row offset kh and input channel c the three products along the
  row vote by the sign of their sum, and the votes are counted over the channels and the row offsets.
  The sums are written in the order both programs take them (kw = 0, 1, 2 inside; kh = 0, 1, 2 outside),
  so that neither side needs more than 0 + x = x to meet it.
-/
import Idealize.ShloMosaic.PureOps.Ideal
import Idealize.ShloMosaic.Lib.ValueIdx

noncomputable section

namespace Cert.Maj3

open Idealize.ShloMosaic Idealize.ShloMosaic.ValueIdx

/-- The padded image, the weights, the result. -/
abbrev SPad : Shape := ⟨4, ![4, 58, 58, 64]⟩
abbrev SWgt : Shape := ⟨4, ![64, 3, 3, 64]⟩
abbrev SOut : Shape := ⟨4, ![4, 64, 56, 56]⟩

/-- Row (or column) `h + k` of the padded image, for an output row (column) `h < 56` and an offset `k < 3`. -/
def shift (h : Fin 56) (k : Fin 3) : Fin 58 := ⟨h.val + k.val, by omega⟩

/-- The sum of the three products along the row: `Σ_kw P[b, h + kh, w + kw, c] · W[o, kw, kh, c]`. -/
def taps (P : SPad.Idx → EReal) (W : SWgt.Idx → EReal) (b : Fin 4) (o : Fin 64) (h w : Fin 56) (kh : Fin 3)
    (c : Fin 64) : EReal :=
  P (ix4 b (shift h kh) (shift w 0) c) * W (ix4 o (0 : Fin 3) kh c)
    + P (ix4 b (shift h kh) (shift w 1) c) * W (ix4 o (1 : Fin 3) kh c)
    + P (ix4 b (shift h kh) (shift w 2) c) * W (ix4 o (2 : Fin 3) kh c)

/-- The votes of one row offset, counted over the 64 input channels. -/
def votes (P : SPad.Idx → EReal) (W : SWgt.Idx → EReal) (b : Fin 4) (o : Fin 64) (h w : Fin 56) (kh : Fin 3) : EReal :=
  ∑ c : Fin 64, Ideal.sign (taps P W b o h w kh c)

/-- The result at coordinates (b, o, h, w). -/
def maj3At (P : SPad.Idx → EReal) (W : SWgt.Idx → EReal) (b : Fin 4) (o : Fin 64) (h w : Fin 56) : EReal :=
  votes P W b o h w 0 + votes P W b o h w 1 + votes P W b o h w 2

/-- The result as one function of the padded image and the weights. -/
def maj3 (P : SPad.Idx → EReal) (W : SWgt.Idx → EReal) : SOut.Idx → EReal :=
  fun i => maj3At P W (i 0) (i 1) (i 2) (i 3)

/-! The same count over any reader of one image and one output channel's weights: `p r s c` for the padded image at
    row `r`, column `s`, channel `c`, and `q kw kh c` for the weight of column offset `kw`, row offset `kh`, channel `c`.
    A block of the result is this count of a block of the image and a block of the weights. -/

/-- `Σ_kw p (h + kh) (w + kw) c · q kw kh c`. -/
def tapsOf (p : Fin 58 → Fin 58 → Fin 64 → EReal) (q : Fin 3 → Fin 3 → Fin 64 → EReal) (h w : Fin 56) (kh : Fin 3)
    (c : Fin 64) : EReal :=
  p (shift h kh) (shift w 0) c * q 0 kh c + p (shift h kh) (shift w 1) c * q 1 kh c
    + p (shift h kh) (shift w 2) c * q 2 kh c

/-- The votes of one row offset over the channels. -/
def votesOf (p : Fin 58 → Fin 58 → Fin 64 → EReal) (q : Fin 3 → Fin 3 → Fin 64 → EReal) (h w : Fin 56) (kh : Fin 3) : EReal :=
  ∑ c : Fin 64, Ideal.sign (tapsOf p q h w kh c)

/-- The count at position (h, w). -/
def countOf (p : Fin 58 → Fin 58 → Fin 64 → EReal) (q : Fin 3 → Fin 3 → Fin 64 → EReal) (h w : Fin 56) : EReal :=
  votesOf p q h w 0 + votesOf p q h w 1 + votesOf p q h w 2

/-- The result at (b, o, h, w) is the count of image `b` and the weights of output channel `o`. -/
theorem maj3At_eq_countOf (P : SPad.Idx → EReal) (W : SWgt.Idx → EReal) (b : Fin 4) (o : Fin 64) (h w : Fin 56) :
    maj3At P W b o h w = countOf (fun r s c => P (ix4 b r s c)) (fun kw kh c => W (ix4 o kw kh c)) h w := rfl

theorem maj3_ix4 (P : SPad.Idx → EReal) (W : SWgt.Idx → EReal) (b : Fin 4) (o : Fin 64) (h w : Fin 56) :
    maj3 P W (ix4 b o h w) = maj3At P W b o h w := rfl

end Cert.Maj3

end
-- ==== Proof.KernelTrip.lean ====
/-
  What the kernel's body leaves in its output block, piece by piece.

  The body loads the nine shifted 56 × 56 × 64 windows of its padded image block once, and then, for each of the
  sixteen output channels `k` of the grid point, loads the nine weight rows `W[k, kw, kh, :]`, forms the value of
  that channel (`tripVal`: a 56 × 56 plane) and stores it at rows `[0, k, :, :]` of the output block. So the
  stores of the body are sixteen planes, one per channel: every piece of the block is `tripVal` of some `k`
  stored at the `k`-th plane (`pieces_form`), and the block read back at an index is the plane's value there for
  any one function that all sixteen planes restrict (`out_apply`). Stated at any float instance.
-/
import proofs.«123025_j1580547975210_2_alg».proof.Proof.Gen.KernelIdeal.Frame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The plane the body stores for output channel `k` of the grid point: the nine windows `v1 … v17` of the image
    block (row offset kh = 0: `v1 v3 v5`; kh = 1: `v7 v9 v11`; kh = 2: `v13 v15 v17`; column offsets kw = 0, 1, 2 in
    each) against the nine weight rows of channel `k` read off the weight block `X`. -/
def tripVal (v1 v3 v5 v7 v9 v11 v13 v15 v17 : FVec F S56x56x64 .f32) (X : Vec F S16x3x3x64 .f32)
    (k : Fin k0_t1_loop.trips) : FVec F S1x1x56x56 .f32 :=
  k0_pay1 v17
    (k0_pay4 v9 v11
      (k0_pay2 v1 v3 v5
        (View.ld X (Rect.unit (s := S16x3x3x64) (k0_off1 k) S1x1x1x64.size (Facts₀.k0_off1_inb k)))
        (View.ld X (Rect.unit (s := S16x3x3x64) (k0_off2 k) S1x1x1x64.size (Facts₀.k0_off2_inb k)))
        (View.ld X (Rect.unit (s := S16x3x3x64) (k0_off3 k) S1x1x1x64.size (Facts₀.k0_off3_inb k))))
      (k0_pay3 v7 (View.ld X (Rect.unit (s := S16x3x3x64) (k0_off4 k) S1x1x1x64.size (Facts₀.k0_off4_inb k))))
      (View.ld X (Rect.unit (s := S16x3x3x64) (k0_off5 k) S1x1x1x64.size (Facts₀.k0_off5_inb k)))
      (View.ld X (Rect.unit (s := S16x3x3x64) (k0_off6 k) S1x1x1x64.size (Facts₀.k0_off6_inb k))))
    (k0_pay5 v13 v15
      (View.ld X (Rect.unit (s := S16x3x3x64) (k0_off7 k) S1x1x1x64.size (Facts₀.k0_off7_inb k)))
      (View.ld X (Rect.unit (s := S16x3x3x64) (k0_off8 k) S1x1x1x64.size (Facts₀.k0_off8_inb k))))
    (View.ld X (Rect.unit (s := S16x3x3x64) (k0_off9 k) S1x1x1x64.size (Facts₀.k0_off9_inb k)))

/-- Where channel `k`'s plane goes: rows `[0, k, :, :]` of the output block. -/
abbrev planeRect (k : Fin k0_t1_loop.trips) : Rect S1x16x56x56 :=
  Rect.unit (s := S1x16x56x56) (k0_off10 k) S1x1x56x56.size (Facts₀.k0_off10_inb k)

/-- One trip of the loop over the output channels stores exactly one piece: channel `k`'s plane. -/
theorem trip_piece (𝒱 : Variants) (c : Dev nD) (bd : Option 𝒱.V) (i : grid0.Coords)
    (arg2 : Memref sig .tc .vmem S1x58x58x64 .f32) (harg2 : arg2.IsWhole)
    (arg3 : Memref sig .tc .vmem S16x3x3x64 .f32) (harg3 : arg3.IsWhole)
    (arg4 : Memref sig .tc .vmem S1x16x56x56 .f32) (harg4 : arg4.IsWhole)
    (v1 v3 v5 v7 v9 v11 v13 v15 v17 : FVec F S56x56x64 .f32) (c0_i32 c1_i32 : BitVec 32)
    (X : Vec F S16x3x3x64 .f32) (k : Fin k0_t1_loop.trips) :
    tripL_k0_t1 (F := F) 𝒱 c bd i arg2 harg2 arg3 harg3 arg4 harg4 v1 v3 v5 v7 v9 v11 v13 v15 v17 c0_i32 c1_i32
        (harg3.unread X) k
      = [(⟨planeRect k, tripVal v1 v3 v5 v7 v9 v11 v13 v15 v17 X k⟩ : View.Piece (Elt F) S1x16x56x56 .f32)] := by
  unfold tripL_k0_t1 trip_k0_t1
  dsimp only
  sl_unfold_run_names
  simp only [View.readAt_eq_ld, harg3.read_unread]
  rfl

/-- So the pieces of the first `n` trips are planes of channels, each the channel's `tripVal`. -/
theorem pieces_form (𝒱 : Variants) (c : Dev nD) (bd : Option 𝒱.V) (i : grid0.Coords)
    (arg2 : Memref sig .tc .vmem S1x58x58x64 .f32) (harg2 : arg2.IsWhole)
    (arg3 : Memref sig .tc .vmem S16x3x3x64 .f32) (harg3 : arg3.IsWhole)
    (arg4 : Memref sig .tc .vmem S1x16x56x56 .f32) (harg4 : arg4.IsWhole)
    (v1 v3 v5 v7 v9 v11 v13 v15 v17 : FVec F S56x56x64 .f32) (c0_i32 c1_i32 : BitVec 32)
    (X : Vec F S16x3x3x64 .f32) :
    ∀ n : ℕ, n ≤ k0_t1_loop.trips →
      ∀ p ∈ pb_k0_t1 (F := F) 𝒱 c bd i arg2 harg2 arg3 harg3 arg4 harg4 v1 v3 v5 v7 v9 v11 v13 v15 v17 c0_i32 c1_i32
          (harg3.unread X) n,
        ∃ k : Fin k0_t1_loop.trips,
          p = (⟨planeRect k, tripVal v1 v3 v5 v7 v9 v11 v13 v15 v17 X k⟩ : View.Piece (Elt F) S1x16x56x56 .f32) := by
  intro n
  induction n with
  | zero =>
    intro _ p hp
    rw [pb_k0_t1.eq_1] at hp
    exact absurd hp List.not_mem_nil
  | succ n ih =>
    intro hn p hp
    have hlt : n < k0_t1_loop.trips := hn
    have hs := pb_k0_t1_succ (F := F) 𝒱 c bd i arg2 harg2 arg3 harg3 arg4 harg4 v1 v3 v5 v7 v9 v11 v13 v15 v17
      c0_i32 c1_i32 (harg3.unread X) ⟨n, hlt⟩
    rw [trip_piece] at hs
    have hp' := hs ▸ hp
    rcases List.mem_append.mp hp' with h | h
    · exact ⟨⟨n, hlt⟩, List.mem_singleton.mp h⟩
    · exact ih (Nat.le_of_lt hlt) p h

/-- The nine windows of the image block. -/
abbrev win0 (x0 : Vec F S1x58x58x64 .f32) : FVec F S56x56x64 .f32 := k0_pay6 (View.ld x0 (Rect.unit (s := S1x58x58x64) ![0, 0, 0, 0] S1x56x56x64.size Facts₀.inb_S1x58x58x64_S1x56x56x64_0_0_0_0))
abbrev win1 (x0 : Vec F S1x58x58x64 .f32) : FVec F S56x56x64 .f32 := k0_pay7 (View.ld x0 (Rect.unit (s := S1x58x58x64) ![0, 0, 1, 0] S1x56x56x64.size Facts₀.inb_S1x58x58x64_S1x56x56x64_0_0_1_0))
abbrev win2 (x0 : Vec F S1x58x58x64 .f32) : FVec F S56x56x64 .f32 := k0_pay8 (View.ld x0 (Rect.unit (s := S1x58x58x64) ![0, 0, 2, 0] S1x56x56x64.size Facts₀.inb_S1x58x58x64_S1x56x56x64_0_0_2_0))
abbrev win3 (x0 : Vec F S1x58x58x64 .f32) : FVec F S56x56x64 .f32 := k0_pay9 (View.ld x0 (Rect.unit (s := S1x58x58x64) ![0, 1, 0, 0] S1x56x56x64.size Facts₀.inb_S1x58x58x64_S1x56x56x64_0_1_0_0))
abbrev win4 (x0 : Vec F S1x58x58x64 .f32) : FVec F S56x56x64 .f32 := k0_pay10 (View.ld x0 (Rect.unit (s := S1x58x58x64) ![0, 1, 1, 0] S1x56x56x64.size Facts₀.inb_S1x58x58x64_S1x56x56x64_0_1_1_0))
abbrev win5 (x0 : Vec F S1x58x58x64 .f32) : FVec F S56x56x64 .f32 := k0_pay11 (View.ld x0 (Rect.unit (s := S1x58x58x64) ![0, 1, 2, 0] S1x56x56x64.size Facts₀.inb_S1x58x58x64_S1x56x56x64_0_1_2_0))
abbrev win6 (x0 : Vec F S1x58x58x64 .f32) : FVec F S56x56x64 .f32 := k0_pay12 (View.ld x0 (Rect.unit (s := S1x58x58x64) ![0, 2, 0, 0] S1x56x56x64.size Facts₀.inb_S1x58x58x64_S1x56x56x64_0_2_0_0))
abbrev win7 (x0 : Vec F S1x58x58x64 .f32) : FVec F S56x56x64 .f32 := k0_pay13 (View.ld x0 (Rect.unit (s := S1x58x58x64) ![0, 2, 1, 0] S1x56x56x64.size Facts₀.inb_S1x58x58x64_S1x56x56x64_0_2_1_0))
abbrev win8 (x0 : Vec F S1x58x58x64 .f32) : FVec F S56x56x64 .f32 := k0_pay14 (View.ld x0 (Rect.unit (s := S1x58x58x64) ![0, 2, 2, 0] S1x56x56x64.size Facts₀.inb_S1x58x58x64_S1x56x56x64_0_2_2_0))

/-- The plane of channel `k` as a function of the two input blocks: the windows are the image block `x0` read at the
    nine offsets (kh, kw) and reshaped from 1 × 56 × 56 × 64 to 56 × 56 × 64. -/
def blockVal (x0 : Vec F S1x58x58x64 .f32) (x1 : Vec F S16x3x3x64 .f32) (k : Fin k0_t1_loop.trips) :
    FVec F S1x1x56x56 .f32 :=
  tripVal (win0 x0) (win1 x0) (win2 x0) (win3 x0) (win4 x0) (win5 x0) (win6 x0) (win7 x0) (win8 x0) x1 k

/-- The whole body's stores are the pieces of the sixteen trips over the nine windows. -/
theorem run_pieces (c : Dev nD) (i : grid0.Coords)
    (arg2 : Memref sig .tc .vmem S1x58x58x64 .f32) (harg2 : arg2.IsWhole)
    (arg3 : Memref sig .tc .vmem S16x3x3x64 .f32) (harg3 : arg3.IsWhole)
    (arg4 : Memref sig .tc .vmem S1x16x56x56 .f32) (harg4 : arg4.IsWhole)
    (x0 : Vec F S1x58x58x64 .f32) (x1 : Vec F S16x3x3x64 .f32) :
    (kernelRun0_A c i arg2 harg2 arg3 harg3 arg4 harg4 x0 x1).1
      = pb_k0_t1 (F := F) Variants.none c none i arg2 harg2 arg3 harg3 arg4 harg4 (win0 x0) (win1 x0) (win2 x0) (win3 x0)
          (win4 x0) (win5 x0) (win6 x0) (win7 x0) (win8 x0) 0#32 1#32 (harg3.unread x1) k0_t1_loop.trips := by
  unfold kernelRun0_A
  dsimp only
  sl_unfold_run_names
  simp only [View.readAt_eq_ld, harg2.read_unread]

/-- … every one a channel's plane of the two input blocks. -/
theorem run_pieces_form (c : Dev nD) (i : grid0.Coords)
    (arg2 : Memref sig .tc .vmem S1x58x58x64 .f32) (harg2 : arg2.IsWhole)
    (arg3 : Memref sig .tc .vmem S16x3x3x64 .f32) (harg3 : arg3.IsWhole)
    (arg4 : Memref sig .tc .vmem S1x16x56x56 .f32) (harg4 : arg4.IsWhole)
    (x0 : Vec F S1x58x58x64 .f32) (x1 : Vec F S16x3x3x64 .f32) :
    ∀ p ∈ (kernelRun0_A c i arg2 harg2 arg3 harg3 arg4 harg4 x0 x1).1,
      ∃ k : Fin k0_t1_loop.trips, p = (⟨planeRect k, blockVal x0 x1 k⟩ : View.Piece (Elt F) S1x16x56x56 .f32) := by
  intro p hp
  rw [run_pieces] at hp
  exact pieces_form Variants.none c none i arg2 harg2 arg3 harg3 arg4 harg4 _ _ _ _ _ _ _ _ _ _ _ x1 _ (le_refl _) p hp

/-- The output block after the body, read at an index: for any ONE function `G` of the block's index that each
    channel's plane restricts, the block is `G`. -/
theorem out_apply (c : Dev nD) (i : grid0.Coords)
    (arg2 : Memref sig .tc .vmem S1x58x58x64 .f32) (harg2 : arg2.IsWhole)
    (arg3 : Memref sig .tc .vmem S16x3x3x64 .f32) (harg3 : arg3.IsWhole)
    (arg4 : Memref sig .tc .vmem S1x16x56x56 .f32) (harg4 : arg4.IsWhole)
    (x0 : Vec F S1x58x58x64 .f32) (x1 : Vec F S16x3x3x64 .f32) (G : S1x16x56x56.Idx → Elt F .f32)
    (hG : ∀ (k : Fin k0_t1_loop.trips) (x : S1x1x56x56.Idx), blockVal x0 x1 k x = G ((planeRect k).emb x))
    (y : S1x16x56x56.Idx) :
    out0_A_2 c i arg2 harg2 arg3 harg3 arg4 harg4 x0 x1 y = G y := by
  unfold out0_A_2
  rw [View.read_writes_eq_canon _ _ _ (cover0_A_2 c i arg2 harg2 arg3 harg3 arg4 harg4 x0 x1)]
  refine View.canon_apply_of_pieces G _ ?_ y (cover0_A_2 c i arg2 harg2 arg3 harg3 arg4 harg4 x0 x1 y)
  intro p hp x
  obtain ⟨k, rfl⟩ := run_pieces_form c i arg2 harg2 arg3 harg3 arg4 harg4 x0 x1 p hp
  exact hG k x

end Cert.KernelIdeal.Body

end
-- ==== Proof.KernelPayload.lean ====
/-
  The kernel's arithmetic for one output channel, read at one position.

  For output channel k of a grid point the body forms a 56 × 56 plane from nine windows of its padded image
  block X[0, r, s, c] (58 × 58 positions, 64 channels) and nine rows of its weight block Y[k, kw, kh, c]. The
  window of the offset (kh, kw) is the 56 × 56 × 64 piece of X that starts at row kh and column kw, so at
  (h, w, c) it is X[0, h + kh, w + kw, c]; the weight row of (kw, kh) is Y[k, kw, kh, ·], repeated over all
  positions. For each row offset kh the three products kw = 0, 1, 2 are added left to right, starting from a
  zero, the sign of the sum is taken, and the signs are summed over the channel c; the three sums
  kh = 0, 1, 2 are added in this order. That is the specification's count of the image block and of row k of
  the weight block: the same sums in the same order, so that 0 + x = x is the only law of arithmetic used.
  Everything else says which element of its operand a step reads: a window or a weight row at an index, a
  change of shape that keeps the row-major order, a row repeated along new axes, the sum along the last axis.
-/
import proofs.«123025_j1580547975210_2_alg».proof.Proof.Spec
import proofs.«123025_j1580547975210_2_alg».proof.Proof.KernelTrip
import Idealize.ShloMosaic.PureOps.Ideal.Laws
import Idealize.ShloMosaic.Lib.ValueLayout

noncomputable section

namespace Cert.KernelIdeal.Payload

open Cert.KernelIdeal Cert.KernelIdeal.Gen Cert.KernelIdeal.Body Idealize.ShloMosaic Idealize.ShloMosaic.ValueIdx
open Cert.Maj3 (shift tapsOf votesOf countOf)

/-! ## Steps that only move elements -/

/-- A weight row of 64 channels, written as a 1 × 1 × 1 × 64 array, flattened, given two unit axes and repeated over
    the 56 × 56 positions: at (h, w, c) it is the row's entry c. Each change of shape keeps the row-major position,
    which is c throughout. -/
theorem rowAt (wv : Vec Ideal S1x1x1x64 .f32) (h1 : S1x1x1x64.ShapeCasts S64) (h2 : S64.ShapeCasts S1x1x64)
    (h3 : S1x1x64.Broadcasts S56x56x64) (h w : Fin 56) (c : Fin 64) :
    broadcastTo S56x56x64 (shapeCast S1x1x64 (shapeCast S64 wv h1) h2) h3 (ix3 h w c)
      = wv (ix4 (0 : Fin 1) (0 : Fin 1) (0 : Fin 1) c) := by
  refine (broadcastTo_apply _ h3 (ix3 h w c) (ix3 (0 : Fin 1) (0 : Fin 1) c) (fun a => by
    match a with
    | ⟨0, _⟩ => rfl
    | ⟨1, _⟩ => rfl
    | ⟨2, _⟩ => rfl)).trans ?_
  refine (shapeCast_apply _ h2 (ix3 (0 : Fin 1) (0 : Fin 1) c) (ix1 c) (by
    rw [Shape.rowMajor_val_one, Shape.rowMajor_val_three]
    show c.val = (0 * 1 + 0) * 64 + c.val
    omega)).trans ?_
  exact shapeCast_apply _ h1 (ix1 c) (ix4 (0 : Fin 1) (0 : Fin 1) (0 : Fin 1) c) (by
    rw [Shape.rowMajor_val_one, Shape.rowMajor_val_four]
    show ((0 * 1 + 0) * 1 + 0) * 64 + c.val = c.val
    omega)

/-- The sum of a 56 × 56 × 64 array along its last axis, into a zero, is at (h, w) the sum over the channel c of the
    entries (h, w, c). -/
theorem laneSum (src : FVec Ideal S56x56x64 .f32) (hr : S56x56x64.Reduces [2] S56x56) (hφ : FKind.Formats .f32)
    (hacc : (0x00000000#32 : BitVec 32) = FKind.add.neutral .f32 hφ) (h w : Fin 56) :
    multiReduction .add [2] S56x56 src 0x00000000#32 hr hφ hacc (ix2 h w) = ∑ c : Fin 64, src (ix3 h w c) := by
  refine (Ideal.multiReduction_add_single src 0x00000000#32 hr hφ hacc (ix2 h w)).trans ?_
  refine Finset.sum_congr rfl fun c _ => congrArg src (funext fun a => Fin.ext ?_)
  match a with
  | ⟨0, _⟩ => rfl
  | ⟨1, _⟩ => rfl
  | ⟨2, _⟩ => rfl

/-- The kernel's sign — where |v| > 0 the constant -1 or 1 by the order against 0, elsewhere v itself — is the sign
    of the extended reals at every element. -/
theorem signAt (v : FVec Ideal S56x56x64 .f32) (i : S56x56x64.Idx) :
    select (cmpf .ogt (absf v) (broadcast S56x56x64 (Scalar.ofBits .f32 0x00000000#32)))
        (select (cmpf .olt v (constant S56x56x64 .f32 0x00000000#32)) (constant S56x56x64 .f32 0xBF800000#32)
          (constant S56x56x64 .f32 0x3F800000#32)) v i
      = Ideal.sign (v i) :=
  Ideal.jnp_sign_eq_sign_f32 (v i)

/-! ## The nine windows of the image block

  The piece of 1 × 56 × 56 × 64 entries that starts at (0, kh, kw, 0), with its unit axis dropped: its entry
  (h, w, c) is the block's entry (0, kh + h, kw + w, c), the specification's (0, h + kh, w + kw, c). -/

theorem windowAt (x0 : Vec Ideal S1x58x58x64 .f32) (off : Fin 4 → Nat)
    (inb : ∀ a, off a + S1x56x56x64.size a ≤ S1x58x58x64.size a) (hc : S1x56x56x64.ShapeCasts S56x56x64)
    (kh kw : Fin 3) (hoff : off = ![0, kh.val, kw.val, 0]) (h w : Fin 56) (c : Fin 64) :
    shapeCast S56x56x64 (View.ld x0 (Rect.unit (s := S1x58x58x64) off S1x56x56x64.size inb)) hc (ix3 h w c)
      = x0 (ix4 (0 : Fin 1) (shift h kh) (shift w kw) c) := by
  subst hoff
  refine (shapeCast_1abc_abc_apply _ _ h w c).trans ?_
  show x0 _ = x0 _
  refine congrArg x0 (funext fun a => Fin.ext ?_)
  unfold shift
  match a with
  | ⟨0, _⟩ => rfl
  | ⟨1, _⟩ => show kh.val + 1 * h.val = h.val + kh.val; omega
  | ⟨2, _⟩ => show kw.val + 1 * w.val = w.val + kw.val; omega
  | ⟨3, _⟩ => show 0 + 1 * c.val = c.val; omega

theorem win0At (x0 : Vec Ideal S1x58x58x64 .f32) (h w : Fin 56) (c : Fin 64) :
    Body.win0 (F := Ideal) x0 (ix3 h w c) = x0 (ix4 (0 : Fin 1) (shift h 0) (shift w 0) c) := by
  unfold Body.win0 k0_pay6; exact windowAt x0 _ _ _ 0 0 rfl h w c

theorem win1At (x0 : Vec Ideal S1x58x58x64 .f32) (h w : Fin 56) (c : Fin 64) :
    Body.win1 (F := Ideal) x0 (ix3 h w c) = x0 (ix4 (0 : Fin 1) (shift h 0) (shift w 1) c) := by
  unfold Body.win1 k0_pay7; exact windowAt x0 _ _ _ 0 1 rfl h w c

theorem win2At (x0 : Vec Ideal S1x58x58x64 .f32) (h w : Fin 56) (c : Fin 64) :
    Body.win2 (F := Ideal) x0 (ix3 h w c) = x0 (ix4 (0 : Fin 1) (shift h 0) (shift w 2) c) := by
  unfold Body.win2 k0_pay8; exact windowAt x0 _ _ _ 0 2 rfl h w c

theorem win3At (x0 : Vec Ideal S1x58x58x64 .f32) (h w : Fin 56) (c : Fin 64) :
    Body.win3 (F := Ideal) x0 (ix3 h w c) = x0 (ix4 (0 : Fin 1) (shift h 1) (shift w 0) c) := by
  unfold Body.win3 k0_pay9; exact windowAt x0 _ _ _ 1 0 rfl h w c

theorem win4At (x0 : Vec Ideal S1x58x58x64 .f32) (h w : Fin 56) (c : Fin 64) :
    Body.win4 (F := Ideal) x0 (ix3 h w c) = x0 (ix4 (0 : Fin 1) (shift h 1) (shift w 1) c) := by
  unfold Body.win4 k0_pay10; exact windowAt x0 _ _ _ 1 1 rfl h w c

theorem win5At (x0 : Vec Ideal S1x58x58x64 .f32) (h w : Fin 56) (c : Fin 64) :
    Body.win5 (F := Ideal) x0 (ix3 h w c) = x0 (ix4 (0 : Fin 1) (shift h 1) (shift w 2) c) := by
  unfold Body.win5 k0_pay11; exact windowAt x0 _ _ _ 1 2 rfl h w c

theorem win6At (x0 : Vec Ideal S1x58x58x64 .f32) (h w : Fin 56) (c : Fin 64) :
    Body.win6 (F := Ideal) x0 (ix3 h w c) = x0 (ix4 (0 : Fin 1) (shift h 2) (shift w 0) c) := by
  unfold Body.win6 k0_pay12; exact windowAt x0 _ _ _ 2 0 rfl h w c

theorem win7At (x0 : Vec Ideal S1x58x58x64 .f32) (h w : Fin 56) (c : Fin 64) :
    Body.win7 (F := Ideal) x0 (ix3 h w c) = x0 (ix4 (0 : Fin 1) (shift h 2) (shift w 1) c) := by
  unfold Body.win7 k0_pay13; exact windowAt x0 _ _ _ 2 1 rfl h w c

theorem win8At (x0 : Vec Ideal S1x58x58x64 .f32) (h w : Fin 56) (c : Fin 64) :
    Body.win8 (F := Ideal) x0 (ix3 h w c) = x0 (ix4 (0 : Fin 1) (shift h 2) (shift w 2) c) := by
  unfold Body.win8 k0_pay14; exact windowAt x0 _ _ _ 2 2 rfl h w c

/-! ## The nine weight rows of channel k

  The piece of 1 × 1 × 1 × 64 entries of the weight block that starts at (k, kw, kh, 0): its entry (0, 0, 0, c) is
  the block's entry (k, kw, kh, c). -/

theorem weightRowAt (x1 : Vec Ideal S16x3x3x64 .f32) (off : Fin 4 → Nat)
    (inb : ∀ a, off a + S1x1x1x64.size a ≤ S16x3x3x64.size a) (k : ℕ) (hk : k < 16) (kw kh : Fin 3)
    (hoff : off = ![k, kw.val, kh.val, 0]) (c : Fin 64) :
    View.ld x1 (Rect.unit (s := S16x3x3x64) off S1x1x1x64.size inb) (ix4 (0 : Fin 1) (0 : Fin 1) (0 : Fin 1) c)
      = x1 (ix4 (⟨k, hk⟩ : Fin 16) kw kh c) := by
  subst hoff
  show x1 _ = x1 _
  refine congrArg x1 (funext fun a => Fin.ext ?_)
  match a with
  | ⟨0, _⟩ => show k + 1 * 0 = k; omega
  | ⟨1, _⟩ => show kw.val + 1 * 0 = kw.val; omega
  | ⟨2, _⟩ => show kh.val + 1 * 0 = kh.val; omega
  | ⟨3, _⟩ => show 0 + 1 * c.val = c.val; omega

theorem wrow1 (x1 : Vec Ideal S16x3x3x64 .f32) (k : Fin k0_t1_loop.trips) (hk : k.val < 16) (c : Fin 64) :
    View.ld x1 (Rect.unit (s := S16x3x3x64) (k0_off1 k) S1x1x1x64.size (Facts₀.k0_off1_inb k))
        (ix4 (0 : Fin 1) (0 : Fin 1) (0 : Fin 1) c)
      = x1 (ix4 (⟨k.val, hk⟩ : Fin 16) (0 : Fin 3) (0 : Fin 3) c) :=
  weightRowAt x1 _ _ k.val hk 0 0 (k0_off1_eq k) c

theorem wrow2 (x1 : Vec Ideal S16x3x3x64 .f32) (k : Fin k0_t1_loop.trips) (hk : k.val < 16) (c : Fin 64) :
    View.ld x1 (Rect.unit (s := S16x3x3x64) (k0_off2 k) S1x1x1x64.size (Facts₀.k0_off2_inb k))
        (ix4 (0 : Fin 1) (0 : Fin 1) (0 : Fin 1) c)
      = x1 (ix4 (⟨k.val, hk⟩ : Fin 16) (1 : Fin 3) (0 : Fin 3) c) :=
  weightRowAt x1 _ _ k.val hk 1 0 (k0_off2_eq k) c

theorem wrow3 (x1 : Vec Ideal S16x3x3x64 .f32) (k : Fin k0_t1_loop.trips) (hk : k.val < 16) (c : Fin 64) :
    View.ld x1 (Rect.unit (s := S16x3x3x64) (k0_off3 k) S1x1x1x64.size (Facts₀.k0_off3_inb k))
        (ix4 (0 : Fin 1) (0 : Fin 1) (0 : Fin 1) c)
      = x1 (ix4 (⟨k.val, hk⟩ : Fin 16) (2 : Fin 3) (0 : Fin 3) c) :=
  weightRowAt x1 _ _ k.val hk 2 0 (k0_off3_eq k) c

theorem wrow4 (x1 : Vec Ideal S16x3x3x64 .f32) (k : Fin k0_t1_loop.trips) (hk : k.val < 16) (c : Fin 64) :
    View.ld x1 (Rect.unit (s := S16x3x3x64) (k0_off4 k) S1x1x1x64.size (Facts₀.k0_off4_inb k))
        (ix4 (0 : Fin 1) (0 : Fin 1) (0 : Fin 1) c)
      = x1 (ix4 (⟨k.val, hk⟩ : Fin 16) (0 : Fin 3) (1 : Fin 3) c) :=
  weightRowAt x1 _ _ k.val hk 0 1 (k0_off4_eq k) c

theorem wrow5 (x1 : Vec Ideal S16x3x3x64 .f32) (k : Fin k0_t1_loop.trips) (hk : k.val < 16) (c : Fin 64) :
    View.ld x1 (Rect.unit (s := S16x3x3x64) (k0_off5 k) S1x1x1x64.size (Facts₀.k0_off5_inb k))
        (ix4 (0 : Fin 1) (0 : Fin 1) (0 : Fin 1) c)
      = x1 (ix4 (⟨k.val, hk⟩ : Fin 16) (1 : Fin 3) (1 : Fin 3) c) :=
  weightRowAt x1 _ _ k.val hk 1 1 (k0_off5_eq k) c

theorem wrow6 (x1 : Vec Ideal S16x3x3x64 .f32) (k : Fin k0_t1_loop.trips) (hk : k.val < 16) (c : Fin 64) :
    View.ld x1 (Rect.unit (s := S16x3x3x64) (k0_off6 k) S1x1x1x64.size (Facts₀.k0_off6_inb k))
        (ix4 (0 : Fin 1) (0 : Fin 1) (0 : Fin 1) c)
      = x1 (ix4 (⟨k.val, hk⟩ : Fin 16) (2 : Fin 3) (1 : Fin 3) c) :=
  weightRowAt x1 _ _ k.val hk 2 1 (k0_off6_eq k) c

theorem wrow7 (x1 : Vec Ideal S16x3x3x64 .f32) (k : Fin k0_t1_loop.trips) (hk : k.val < 16) (c : Fin 64) :
    View.ld x1 (Rect.unit (s := S16x3x3x64) (k0_off7 k) S1x1x1x64.size (Facts₀.k0_off7_inb k))
        (ix4 (0 : Fin 1) (0 : Fin 1) (0 : Fin 1) c)
      = x1 (ix4 (⟨k.val, hk⟩ : Fin 16) (0 : Fin 3) (2 : Fin 3) c) :=
  weightRowAt x1 _ _ k.val hk 0 2 (k0_off7_eq k) c

theorem wrow8 (x1 : Vec Ideal S16x3x3x64 .f32) (k : Fin k0_t1_loop.trips) (hk : k.val < 16) (c : Fin 64) :
    View.ld x1 (Rect.unit (s := S16x3x3x64) (k0_off8 k) S1x1x1x64.size (Facts₀.k0_off8_inb k))
        (ix4 (0 : Fin 1) (0 : Fin 1) (0 : Fin 1) c)
      = x1 (ix4 (⟨k.val, hk⟩ : Fin 16) (1 : Fin 3) (2 : Fin 3) c) :=
  weightRowAt x1 _ _ k.val hk 1 2 (k0_off8_eq k) c

theorem wrow9 (x1 : Vec Ideal S16x3x3x64 .f32) (k : Fin k0_t1_loop.trips) (hk : k.val < 16) (c : Fin 64) :
    View.ld x1 (Rect.unit (s := S16x3x3x64) (k0_off9 k) S1x1x1x64.size (Facts₀.k0_off9_inb k))
        (ix4 (0 : Fin 1) (0 : Fin 1) (0 : Fin 1) c)
      = x1 (ix4 (⟨k.val, hk⟩ : Fin 16) (2 : Fin 3) (2 : Fin 3) c) :=
  weightRowAt x1 _ _ k.val hk 2 2 (k0_off9_eq k) c

/-! ## The five pieces of the arithmetic, each at an index

  The body is cut into five values. Over arbitrary windows v and weight rows y (1 × 1 × 1 × 64 arrays), at a
  position (h, w) and a channel c:
  the products carried from one piece to the next, 0 + v₇·y (row offset 1) and (0 + v₁₃·y) + v₁₅·y' (row offset 2);
  the votes of row offset 0, 0 + Σ_c sign(((0 + v₁·y) + v₃·y') + v₅·y''); the count after row offset 1, the
  count so far plus Σ_c sign((carried + v₉·y) + v₁₁·y'); and the count after row offset 2, the count so far plus
  Σ_c sign(carried + v₁₇·y), reshaped to a 1 × 1 × 56 × 56 plane whose entry (0, 0, h, w) is the entry (h, w). -/

/-- The first product of row offset 1, added to a zero. -/
theorem pay3At (v7 : FVec Ideal S56x56x64 .f32) (w56 : Vec Ideal S1x1x1x64 .f32) (h w : Fin 56) (c : Fin 64) :
    k0_pay3 (F := Ideal) v7 w56 (ix3 h w c) = v7 (ix3 h w c) * w56 (ix4 (0 : Fin 1) (0 : Fin 1) (0 : Fin 1) c) := by
  unfold k0_pay3
  show Ideal.ofBits .f32 0x00000000#32 + v7 (ix3 h w c) * broadcastTo S56x56x64 _ _ (ix3 h w c) = _
  rw [rowAt, Ideal.ofBits_zero_f32, zero_add]

/-- The first two products of row offset 2, added to a zero. -/
theorem pay5At (v13 v15 : FVec Ideal S56x56x64 .f32) (w90 w97 : Vec Ideal S1x1x1x64 .f32) (h w : Fin 56) (c : Fin 64) :
    k0_pay5 (F := Ideal) v13 v15 w90 w97 (ix3 h w c)
      = v13 (ix3 h w c) * w90 (ix4 (0 : Fin 1) (0 : Fin 1) (0 : Fin 1) c)
        + v15 (ix3 h w c) * w97 (ix4 (0 : Fin 1) (0 : Fin 1) (0 : Fin 1) c) := by
  unfold k0_pay5
  show Ideal.ofBits .f32 0x00000000#32 + v13 (ix3 h w c) * broadcastTo S56x56x64 _ _ (ix3 h w c)
      + v15 (ix3 h w c) * broadcastTo S56x56x64 _ _ (ix3 h w c) = _
  rw [rowAt, rowAt, Ideal.ofBits_zero_f32, zero_add]

/-- The votes of row offset 0. -/
theorem pay2At (v1 v3 v5 : FVec Ideal S56x56x64 .f32) (w22 w29 w36 : Vec Ideal S1x1x1x64 .f32) (h w : Fin 56) :
    k0_pay2 (F := Ideal) v1 v3 v5 w22 w29 w36 (ix2 h w)
      = ∑ c : Fin 64, Ideal.sign (v1 (ix3 h w c) * w22 (ix4 (0 : Fin 1) (0 : Fin 1) (0 : Fin 1) c)
          + v3 (ix3 h w c) * w29 (ix4 (0 : Fin 1) (0 : Fin 1) (0 : Fin 1) c)
          + v5 (ix3 h w c) * w36 (ix4 (0 : Fin 1) (0 : Fin 1) (0 : Fin 1) c)) := by
  unfold k0_pay2
  dsimp only
  show Ideal.ofBits .f32 0x00000000#32 + multiReduction .add [2] S56x56 _ 0x00000000#32 _ _ _ (ix2 h w) = _
  rw [Ideal.ofBits_zero_f32, zero_add]
  refine (laneSum _ _ _ _ h w).trans (Finset.sum_congr rfl fun c _ => ?_)
  refine (signAt _ (ix3 h w c)).trans (congrArg Ideal.sign ?_)
  show Ideal.ofBits .f32 0x00000000#32 + v1 (ix3 h w c) * broadcastTo S56x56x64 _ _ (ix3 h w c)
      + v3 (ix3 h w c) * broadcastTo S56x56x64 _ _ (ix3 h w c)
      + v5 (ix3 h w c) * broadcastTo S56x56x64 _ _ (ix3 h w c) = _
  rw [rowAt, rowAt, rowAt, Ideal.ofBits_zero_f32, zero_add]

/-- The votes of row offset 1, added to the count so far. -/
theorem pay4At (v9 v11 : FVec Ideal S56x56x64 .f32) (v53 : FVec Ideal S56x56 .f32) (v61 : FVec Ideal S56x56x64 .f32)
    (w63 w70 : Vec Ideal S1x1x1x64 .f32) (h w : Fin 56) :
    k0_pay4 (F := Ideal) v9 v11 v53 v61 w63 w70 (ix2 h w)
      = v53 (ix2 h w) + ∑ c : Fin 64, Ideal.sign (v61 (ix3 h w c)
          + v9 (ix3 h w c) * w63 (ix4 (0 : Fin 1) (0 : Fin 1) (0 : Fin 1) c)
          + v11 (ix3 h w c) * w70 (ix4 (0 : Fin 1) (0 : Fin 1) (0 : Fin 1) c)) := by
  unfold k0_pay4
  dsimp only
  show v53 (ix2 h w) + multiReduction .add [2] S56x56 _ 0x00000000#32 _ _ _ (ix2 h w) = _
  refine congrArg (v53 (ix2 h w) + ·) ((laneSum _ _ _ _ h w).trans (Finset.sum_congr rfl fun c _ => ?_))
  refine (signAt _ (ix3 h w c)).trans (congrArg Ideal.sign ?_)
  show v61 (ix3 h w c) + v9 (ix3 h w c) * broadcastTo S56x56x64 _ _ (ix3 h w c)
      + v11 (ix3 h w c) * broadcastTo S56x56x64 _ _ (ix3 h w c) = _
  rw [rowAt, rowAt]

/-- The votes of row offset 2, added to the count so far, as a 1 × 1 × 56 × 56 plane. -/
theorem pay1At (v17 : FVec Ideal S56x56x64 .f32) (v87 : FVec Ideal S56x56 .f32) (v102 : FVec Ideal S56x56x64 .f32)
    (w104 : Vec Ideal S1x1x1x64 .f32) (h w : Fin 56) :
    k0_pay1 (F := Ideal) v17 v87 v102 w104 (ix4 (0 : Fin 1) (0 : Fin 1) h w)
      = v87 (ix2 h w) + ∑ c : Fin 64, Ideal.sign (v102 (ix3 h w c)
          + v17 (ix3 h w c) * w104 (ix4 (0 : Fin 1) (0 : Fin 1) (0 : Fin 1) c)) := by
  unfold k0_pay1
  dsimp only
  refine (shapeCast_apply _ _ (ix4 (0 : Fin 1) (0 : Fin 1) h w) (ix2 h w) (by
    rw [Shape.rowMajor_val_two, Shape.rowMajor_val_four]
    show h.val * 56 + w.val = ((0 * 1 + 0) * 56 + h.val) * 56 + w.val
    omega)).trans ?_
  show v87 (ix2 h w) + multiReduction .add [2] S56x56 _ 0x00000000#32 _ _ _ (ix2 h w) = _
  refine congrArg (v87 (ix2 h w) + ·) ((laneSum _ _ _ _ h w).trans (Finset.sum_congr rfl fun c _ => ?_))
  refine (signAt _ (ix3 h w c)).trans (congrArg Ideal.sign ?_)
  show v102 (ix3 h w c) + v17 (ix3 h w c) * broadcastTo S56x56x64 _ _ (ix3 h w c) = _
  rw [rowAt]

/-! ## The plane of channel k

  The five pieces over the nine windows of the image block and the nine weight rows of channel k: the votes of
  the row offsets 0, 1, 2, added in this order. -/

/-- Channel k's plane of the block, at position (h, w), is the count of the image block and of row k of the weight block. -/
theorem blockVal_apply (x0 : Vec Ideal S1x58x58x64 .f32) (x1 : Vec Ideal S16x3x3x64 .f32)
    (k : Fin k0_t1_loop.trips) (hk : k.val < 16) (h w : Fin 56) :
    blockVal (F := Ideal) x0 x1 k (ix4 (0 : Fin 1) (0 : Fin 1) h w)
      = Cert.Maj3.countOf (fun r s c => x0 (ix4 (0 : Fin 1) r s c))
          (fun kw kh c => x1 (ix4 (⟨k.val, hk⟩ : Fin 16) kw kh c)) h w := by
  unfold blockVal tripVal
  rw [pay1At, pay4At, pay2At]
  simp only [pay3At, pay5At, win0At, win1At, win2At, win3At, win4At, win5At, win6At, win7At, win8At,
    wrow1 x1 k hk, wrow2 x1 k hk, wrow3 x1 k hk, wrow4 x1 k hk, wrow5 x1 k hk, wrow6 x1 k hk, wrow7 x1 k hk,
    wrow8 x1 k hk, wrow9 x1 k hk]
  rfl

end Cert.KernelIdeal.Payload

end
-- ==== Proof.KernelArray.lean ====
/-
  From the blocks to the whole array.

  The grid has 4 × 4 points (b, g): point (b, g) reads image `b` of the padded input whole (a 1 × 58 × 58 × 64
  block), the weights of the sixteen output channels 16 g … 16 g + 15 (a 16 × 3 × 3 × 64 block), and writes the
  1 × 16 × 56 × 56 block of the result at image `b`, channels 16 g … 16 g + 15. Channel `k` of the block is the
  count of image `b` and of the weights of channel 16 g + k, which is the specification at (b, 16 g + k, h, w):
  every block the kernel writes back is the block of ONE function of the padded image and the weights, the
  blocks tile the result, and so the result array ends at that function. The padded image is what the two host
  operations before the launch leave: the channel axis moved last, then a ring of zeros around every plane.
-/
import proofs.«123025_j1580547975210_2_alg».proof.Proof.Spec
import proofs.«123025_j1580547975210_2_alg».proof.Proof.KernelTrip
import proofs.«123025_j1580547975210_2_alg».proof.Proof.Gen.KernelIdeal.Value
import Idealize.ShloMosaic.Lib.StableHlo.Run
import proofs.«123025_j1580547975210_2_alg».proof.Proof.KernelPayload

set_option maxRecDepth 16384

noncomputable section

namespace Cert.KernelIdeal.Arr

open Cert.KernelIdeal Cert.KernelIdeal.Gen Cert.KernelIdeal.Body Cert.Maj3
open Idealize.ShloMosaic Idealize.ShloMosaic.TcCoe Idealize.ShloMosaic.ValueIdx Idealize.SL.Sem
open Idealize.ShloMosaic.Pipeline (Dat)

/-- Output channel `16 g + k` of the result: channel `k` of the block of channel group `g`. -/
def chan (g : Fin 4) (k : Fin 16) : Fin 64 := ⟨16 * g.val + k.val, by omega⟩

/-! ## One block -/

/-- The body's output block, for an image block that is image `b` of `P` and a weight block that is channel group
    `g` of `W`: at (0, k, h, w) the specification of `P` and `W` at (b, 16 g + k, h, w). -/
theorem block_eq (c : Dev nD) (i : grid0.Coords)
    (arg2 : Memref sig .tc .vmem S1x58x58x64 .f32) (harg2 : arg2.IsWhole)
    (arg3 : Memref sig .tc .vmem S16x3x3x64 .f32) (harg3 : arg3.IsWhole)
    (arg4 : Memref sig .tc .vmem S1x16x56x56 .f32) (harg4 : arg4.IsWhole)
    (x0 : Vec Ideal S1x58x58x64 .f32) (x1 : Vec Ideal S16x3x3x64 .f32)
    (P : SPad.Idx → EReal) (W : SWgt.Idx → EReal) (b g : Fin 4)
    (h0 : ∀ (r s : Fin 58) (ch : Fin 64), x0 (ix4 (0 : Fin 1) r s ch) = P (ix4 b r s ch))
    (h1 : ∀ (k : Fin 16) (kw kh : Fin 3) (ch : Fin 64), x1 (ix4 k kw kh ch) = W (ix4 (chan g k) kw kh ch))
    (y : S1x16x56x56.Idx) :
    out0_A_2 (F := Ideal) c i arg2 harg2 arg3 harg3 arg4 harg4 x0 x1 y
      = maj3 P W (ix4 b (chan g (y 1)) (y 2) (y 3)) := by
  refine Body.out_apply (F := Ideal) c i arg2 harg2 arg3 harg3 arg4 harg4 x0 x1
    (fun y => maj3 P W (ix4 b (chan g (y 1)) (y 2) (y 3))) ?_ y
  intro k x
  have hk : k.val < 16 := Nat.lt_of_lt_of_le k.isLt k0_t1_abs.2.1
  obtain ⟨u, v, h, w, rfl⟩ : ∃ (u v : Fin 1) (h w : Fin 56), x = ix4 u v h w := ⟨x 0, x 1, x 2, x 3, eq_ix4 x⟩
  obtain rfl : u = 0 := Subsingleton.elim _ _
  obtain rfl : v = 0 := Subsingleton.elim _ _
  rw [Cert.KernelIdeal.Payload.blockVal_apply x0 x1 k hk h w]
  have e : ix4 b (chan g ((planeRect k).emb (ix4 (0 : Fin 1) (0 : Fin 1) h w) 1))
        ((planeRect k).emb (ix4 (0 : Fin 1) (0 : Fin 1) h w) 2) ((planeRect k).emb (ix4 (0 : Fin 1) (0 : Fin 1) h w) 3)
      = (ix4 b (chan g ⟨k.val, hk⟩) h w : SOut.Idx) := by
    funext a; apply Fin.ext
    match a with
    | ⟨0, _⟩ => rfl
    | ⟨1, _⟩ =>
      show 16 * g.val + (k0_off10 k 1 + 1 * 0) = 16 * g.val + k.val
      rw [k0_off10_eq]; rfl
    | ⟨2, _⟩ =>
      show k0_off10 k 2 + 1 * h.val = h.val
      rw [k0_off10_eq]; show 0 + 1 * h.val = h.val; omega
    | ⟨3, _⟩ =>
      show k0_off10 k 3 + 1 * w.val = w.val
      rw [k0_off10_eq]; show 0 + 1 * w.val = w.val; omega
  have e0 : (fun (r s : Fin 58) (ch : Fin 64) => x0 (ix4 (0 : Fin 1) r s ch)) = fun r s ch => P (ix4 b r s ch) :=
    funext fun r => funext fun s => funext fun ch => h0 r s ch
  have e1 : (fun (kw kh : Fin 3) (ch : Fin 64) => x1 (ix4 (⟨k.val, hk⟩ : Fin 16) kw kh ch))
      = fun kw kh ch => W (ix4 (chan g ⟨k.val, hk⟩) kw kh ch) :=
    funext fun kw => funext fun kh => funext fun ch => h1 ⟨k.val, hk⟩ kw kh ch
  refine Eq.trans ?_ (congrArg (maj3 P W) e).symm
  rw [maj3_ix4, maj3At_eq_countOf, e0, e1]

/-! ## The grid's index maps -/

/-- The printed index maps, decided over the sixteen points: the image window follows the output's image axis, the
    weight window the output's channel-group axis, every other block index is zero. -/
theorem idx_facts : ∀ t : Fin cfg0.N,
    win0_0.index t (0 : Fin 4) = win0_2.index t (0 : Fin 4) ∧ win0_0.index t (1 : Fin 4) = 0
    ∧ win0_0.index t (2 : Fin 4) = 0 ∧ win0_0.index t (3 : Fin 4) = 0
    ∧ win0_1.index t (0 : Fin 4) = win0_2.index t (1 : Fin 4) ∧ win0_1.index t (1 : Fin 4) = 0
    ∧ win0_1.index t (2 : Fin 4) = 0 ∧ win0_1.index t (3 : Fin 4) = 0
    ∧ win0_2.index t (0 : Fin 4) ≤ 3 ∧ win0_2.index t (1 : Fin 4) ≤ 3
    ∧ win0_2.index t (2 : Fin 4) = 0 ∧ win0_2.index t (3 : Fin 4) = 0 :=
  (by decide +kernel : ∀ t : Fin grid0.N, _)

/-- Every (image, channel group) is some point's output block. -/
theorem idx_onto : ∀ (q0 q1 : Fin 4), ∃ t : Fin cfg0.N, win0_2.index t = ![q0.val, q1.val, 0, 0] :=
  (by decide +kernel : ∀ (q0 q1 : Fin 4), ∃ t : Fin grid0.N, win0_2.index t = ![q0.val, q1.val, 0, 0])

/-! ## What a point writes back -/

variable (m : (ℓ : Loc nD τ sig) → Buf (Elt Ideal) ℓ) (ρ : Dev nD → PrngReg)

/-- What point `t` writes back is block `t` of the specification of the padded image and the weights as the
    launch finds them. -/
theorem flushed_eq (c : Dev nD) (t : Fin cfg0.N) :
    (dats m 0 c).flushed 2 t
      = ((cfg0.win 2).blk t).view.read (Elt Ideal) (maj3 (V m c main_v1) (V m c main_arg1)) := by
  rw [Value.flushed2_A]
  obtain ⟨e00, e01, e02, e03, e10, e11, e12, e13, b0, b1, e22, e23⟩ := idx_facts t
  funext y
  show out0_A_2 c (grid0.coords t) (ms0_0 t) (hs0_0 t) (ms0_1 t) (hs0_1 t) (ms0_2 t) (hs0_2 t) (iblk m c 0 t) (iblk m c 1 t) y
      = maj3 (V m c main_v1) (V m c main_arg1) (((cfg0.win 2).blk t).view.emb y)
  refine (block_eq c (grid0.coords t) (ms0_0 t) (hs0_0 t) (ms0_1 t) (hs0_1 t) (ms0_2 t) (hs0_2 t) (iblk m c 0 t) (iblk m c 1 t)
    (V m c main_v1) (V m c main_arg1) ⟨win0_2.index t (0 : Fin 4), by omega⟩ ⟨win0_2.index t (1 : Fin 4), by omega⟩ ?_ ?_ y).trans ?_
  · intro r s ch
    show V m c main_v1 (((cfg0.win 0).blk t).view.emb (ix4 (0 : Fin 1) r s ch)) = _
    refine congrArg (V m c main_v1) (funext fun a => Fin.ext ?_)
    match a with
    | ⟨0, _⟩ => show win0_0.index t (0 : Fin 4) * 1 + 1 * 0 = win0_2.index t (0 : Fin 4); omega
    | ⟨1, _⟩ => show win0_0.index t (1 : Fin 4) * 58 + 1 * r.val = r.val; omega
    | ⟨2, _⟩ => show win0_0.index t (2 : Fin 4) * 58 + 1 * s.val = s.val; omega
    | ⟨3, _⟩ => show win0_0.index t (3 : Fin 4) * 64 + 1 * ch.val = ch.val; omega
  · intro k kw kh ch
    show V m c main_arg1 (((cfg0.win 1).blk t).view.emb (ix4 k kw kh ch)) = _
    refine congrArg (V m c main_arg1) (funext fun a => Fin.ext ?_)
    match a with
    | ⟨0, _⟩ => show win0_1.index t (0 : Fin 4) * 16 + 1 * k.val = 16 * win0_2.index t (1 : Fin 4) + k.val; omega
    | ⟨1, _⟩ => show win0_1.index t (1 : Fin 4) * 3 + 1 * kw.val = kw.val; omega
    | ⟨2, _⟩ => show win0_1.index t (2 : Fin 4) * 3 + 1 * kh.val = kh.val; omega
    | ⟨3, _⟩ => show win0_1.index t (3 : Fin 4) * 64 + 1 * ch.val = ch.val; omega
  · refine congrArg (maj3 (V m c main_v1) (V m c main_arg1)) (funext fun a => Fin.ext ?_)
    have hy0 : (y 0).val < 1 := (y 0).isLt
    match a with
    | ⟨0, _⟩ => show win0_2.index t (0 : Fin 4) = win0_2.index t (0 : Fin 4) * 1 + 1 * (y 0).val; omega
    | ⟨1, _⟩ => show 16 * win0_2.index t (1 : Fin 4) + (y 1).val = win0_2.index t (1 : Fin 4) * 16 + 1 * (y 1).val; omega
    | ⟨2, _⟩ => show (y 2).val = win0_2.index t (2 : Fin 4) * 56 + 1 * (y 2).val; omega
    | ⟨3, _⟩ => show (y 3).val = win0_2.index t (3 : Fin 4) * 56 + 1 * (y 3).val; omega

/-! ## The blocks tile the result -/

/-- An index of the result is in point `t`'s block iff each coordinate is in the block's range on its axis. -/
theorem mem_blk (t : Fin cfg0.N) (i : S4x64x56x56.Idx) :
    i ∈ ((cfg0.win 2).blk t).view.set ↔ ∀ a : Fin 4, win0_2.index t a * S1x16x56x56.size a ≤ (i a).val
      ∧ (i a).val < win0_2.index t a * S1x16x56x56.size a + S1x16x56x56.size a := by
  show i ∈ ((View.whole main_v2).slice (win0_2.rect t)).set ↔ _
  rw [View.set_slice_whole, Rect.mem_set_unit]
  exact Iff.rfl

/-- Every index (b, o, h, w) of the result is in the block of the point (b, o / 16). -/
theorem cover (i : S4x64x56x56.Idx) :
    ∃ t : Fin cfg0.N, (cfg0.win 2).flush t = true ∧ i ∈ ((cfg0.win 2).blk t).view.set := by
  have hi0 : (i 0).val < 4 := (i 0).isLt
  have hi1 : (i 1).val < 64 := (i 1).isLt
  have hi2 : (i 2).val < 56 := (i 2).isLt
  have hi3 : (i 3).val < 56 := (i 3).isLt
  obtain ⟨t, ht⟩ := idx_onto ⟨(i 0).val, hi0⟩ ⟨(i 1).val / 16, by omega⟩
  have q0 : win0_2.index t (0 : Fin 4) = (i 0).val := congrFun ht 0
  have q1 : win0_2.index t (1 : Fin 4) = (i 1).val / 16 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 16 ≤ (i 1).val ∧ (i 1).val < win0_2.index t (1 : Fin 4) * 16 + 16; omega
  | ⟨2, _⟩ => show win0_2.index t (2 : Fin 4) * 56 ≤ (i 2).val ∧ (i 2).val < win0_2.index t (2 : Fin 4) * 56 + 56; omega
  | ⟨3, _⟩ => show win0_2.index t (3 : Fin 4) * 56 ≤ (i 3).val ∧ (i 3).val < win0_2.index t (3 : Fin 4) * 56 + 56; omega

/-- The result array after the run: the specification of the padded image and the weights as the launch finds them. -/
theorem final (c : Dev nD) :
    (dats m 0 c).arrAt 2 cfg0.N = maj3 (V m c main_v1) (V m c main_arg1) :=
  (dats m 0 c).arrAt_eq_of_cover 2 (maj3 (V m c main_v1) (V m c main_arg1)) (fun t _ => flushed_eq m c t) cover

/-! ## The padded image -/

/-- The image with its channel axis moved last and a ring of zeros around each of its 56 × 56 planes. -/
def padded (x : S4x64x56x56.Idx → EReal) : S4x58x58x64.Idx → EReal :=
  pad S4x58x58x64 ![0, 1, 1, 0] ![0, 1, 1, 0] ![0, 0, 0, 0]
    (transpose S4x56x56x64 [0, 2, 3, 1] x Facts₀.transposes_S4x64x56x56_S4x56x56x64_0_2_3_1)
    (sitofp (F := Ideal) .f32 (constantI S_ 32 0#32)) Facts₀.pads_S4x56x56x64_S4x58x58x64_000_110_110_000 Facts₀.h_S_

/-- The launch finds the padded image in its first operand: what the host operations before it wrote. -/
theorem V_main_v1 (c : Dev nD) :
    (V m c main_v1 : S4x58x58x64.Idx → EReal) = padded (m ((c : Thread nD τ).loc main_arg0)) := by
  dsimp only [Gen.V]
  simp only [Gen.hostOps0, Gen.hostOps0_1, List.flatten_cons, List.flatten_nil, List.append_nil, List.cons_append,
    List.nil_append]
  after_results
  rfl

/-! ## The run, read -/

/-- Every execution of the kernel's program ends with the result array at the specification of the padded input
    and the weights, the arguments unchanged. -/
theorem run : θ_run defs (onTc (τ := τ) (main (F := Ideal))) ⟨m, fun _ => 0, ρ⟩ fun r => ∀ c : Dev nD,
      r.2.mem ((c : Thread nD τ).loc main_v2)
        = maj3 (padded (m ((c : Thread nD τ).loc main_arg0))) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨by rw [(h c).1, final m c, V_main_v1 m c, V_main_arg1 m c], (h c).2⟩)
    (Value.run_blocks m ρ)

end Cert.KernelIdeal.Arr

end
-- ==== Proof.RefValue.lean ====
/-
  The reference program, read at one element of its result.

  The reference moves the channel axis of the image x[b, c, h, w] last, surrounds every 56 × 56 plane by one
  ring of zeros (the padded image P[b, r, s, c], 58 × 58 positions), and then, for each of the nine offsets
  (kh, kw) of a 3 × 3 window, cuts the 56 × 56 window of P that starts at (kh, kw), cuts the 64 × 64 matrix
  W[·, kw, kh, ·] out of the weights, and spreads both over a common five-axis index (b, h, w, o, c): the image
  factor there is P[b, h + kh, w + kw, c], the weight factor is W[o, kw, kh, c]. For each kh the three products
  kw = 0, 1, 2 are added to a zero, the sign of that sum is taken, the signs are summed over the channel c
  into a zero, and the three sums kh = 0, 1, 2 are added, in that order, to a zero. A last move of the
  output-channel axis gives the result at (b, o, h, w).

  The padded image is never opened: it enters only as the function P. Every other step is a statement about
  which element of its operand an operation reads, so the proof is bookkeeping of indices: the composed index
  maps of the cuts and the spreadings are identified, coordinate by coordinate, with the indices the
  specification is written over. For the weights the 64 × 1 × 1 × 64 cut is flattened to 64 × 64, which reads
  row (64·o + c) / 64 = o and column (64·o + c) % 64 = c. The only arithmetic law used is 0 + x = x.
-/
import proofs.«123025_j1580547975210_2_alg».proof.Proof.Spec
import proofs.«123025_j1580547975210_2_alg».proof.Proof.Gen.ReferenceIdeal.Read

noncomputable section

namespace Cert.ReferenceIdeal.RefValue

open Cert.ReferenceIdeal Cert.ReferenceIdeal.Read Idealize.ShloMosaic Idealize.ShloMosaic.ValueIdx
open Cert.Maj3 (shift taps votes maj3At)

/-! ## The summation index

  The result at (b, o, h, w) is the channel-last array at (b, h, w, o), and the term k of a sum over the last
  of five axes sits at (b, h, w, o, k). The three sums have the same index map. -/

theorem sumIdx0 (b : Fin 4) (o : Fin 64) (h w : Fin 56) (c : Fin 64) :
    idx_main_v32 (idx_main_v96 (ix4 b o h w)) c = ix5 b h w o c :=
  funext fun a => Fin.ext (by match a with | ⟨0, _⟩ => rfl | ⟨1, _⟩ => rfl | ⟨2, _⟩ => rfl | ⟨3, _⟩ => rfl | ⟨4, _⟩ => rfl)

theorem sumIdx1 (b : Fin 4) (o : Fin 64) (h w : Fin 56) (c : Fin 64) :
    idx_main_v63 (idx_main_v96 (ix4 b o h w)) c = ix5 b h w o c :=
  funext fun a => Fin.ext (by match a with | ⟨0, _⟩ => rfl | ⟨1, _⟩ => rfl | ⟨2, _⟩ => rfl | ⟨3, _⟩ => rfl | ⟨4, _⟩ => rfl)

theorem sumIdx2 (b : Fin 4) (o : Fin 64) (h w : Fin 56) (c : Fin 64) :
    idx_main_v94 (idx_main_v96 (ix4 b o h w)) c = ix5 b h w o c :=
  funext fun a => Fin.ext (by match a with | ⟨0, _⟩ => rfl | ⟨1, _⟩ => rfl | ⟨2, _⟩ => rfl | ⟨3, _⟩ => rfl | ⟨4, _⟩ => rfl)

/-! ## The image factor of the offset (kh, kw)

  The window of the padded image that starts at (kh, kw), given a unit axis in the place of the output channel
  and repeated along it: at (b, h, w, o, c) it is P[b, h + kh, w + kw, c]. A cut that starts at 1 or 2 reads
  position 1 + h or 2 + h, which is the specification's h + 1 or h + 2. -/

theorem img00 (x0 : (⟨S4x64x56x56, .f32⟩ : BufTy).Contents (Elt Ideal)) (b : Fin 4) (h w : Fin 56) (o c : Fin 64) :
    val_main_v9 (F := Ideal) x0 (ix5 b h w o c) = val_main_v1 (F := Ideal) x0 (ix4 b (shift h 0) (shift w 0) c) := by
  rw [val_main_v9_apply, val_main_v5_apply, val_main_v4_apply]
  refine congrArg _ (funext fun a => Fin.ext ?_)
  unfold shift
  match a with
  | ⟨0, _⟩ => rfl
  | ⟨1, _⟩ => rfl
  | ⟨2, _⟩ => rfl
  | ⟨3, _⟩ => rfl

theorem img01 (x0 : (⟨S4x64x56x56, .f32⟩ : BufTy).Contents (Elt Ideal)) (b : Fin 4) (h w : Fin 56) (o c : Fin 64) :
    val_main_v18 (F := Ideal) x0 (ix5 b h w o c) = val_main_v1 (F := Ideal) x0 (ix4 b (shift h 0) (shift w 1) c) := by
  rw [val_main_v18_apply, val_main_v14_apply, val_main_v13_apply]
  refine congrArg _ (funext fun a => Fin.ext ?_)
  unfold shift
  match a with
  | ⟨0, _⟩ => rfl
  | ⟨1, _⟩ => rfl
  | ⟨2, _⟩ => show 1 + w.val = w.val + 1; omega
  | ⟨3, _⟩ => rfl

theorem img02 (x0 : (⟨S4x64x56x56, .f32⟩ : BufTy).Contents (Elt Ideal)) (b : Fin 4) (h w : Fin 56) (o c : Fin 64) :
    val_main_v27 (F := Ideal) x0 (ix5 b h w o c) = val_main_v1 (F := Ideal) x0 (ix4 b (shift h 0) (shift w 2) c) := by
  rw [val_main_v27_apply, val_main_v23_apply, val_main_v22_apply]
  refine congrArg _ (funext fun a => Fin.ext ?_)
  unfold shift
  match a with
  | ⟨0, _⟩ => rfl
  | ⟨1, _⟩ => rfl
  | ⟨2, _⟩ => show 2 + w.val = w.val + 2; omega
  | ⟨3, _⟩ => rfl

theorem img10 (x0 : (⟨S4x64x56x56, .f32⟩ : BufTy).Contents (Elt Ideal)) (b : Fin 4) (h w : Fin 56) (o c : Fin 64) :
    val_main_v40 (F := Ideal) x0 (ix5 b h w o c) = val_main_v1 (F := Ideal) x0 (ix4 b (shift h 1) (shift w 0) c) := by
  rw [val_main_v40_apply, val_main_v36_apply, val_main_v35_apply]
  refine congrArg _ (funext fun a => Fin.ext ?_)
  unfold shift
  match a with
  | ⟨0, _⟩ => rfl
  | ⟨1, _⟩ => show 1 + h.val = h.val + 1; omega
  | ⟨2, _⟩ => rfl
  | ⟨3, _⟩ => rfl

theorem img11 (x0 : (⟨S4x64x56x56, .f32⟩ : BufTy).Contents (Elt Ideal)) (b : Fin 4) (h w : Fin 56) (o c : Fin 64) :
    val_main_v49 (F := Ideal) x0 (ix5 b h w o c) = val_main_v1 (F := Ideal) x0 (ix4 b (shift h 1) (shift w 1) c) := by
  rw [val_main_v49_apply, val_main_v45_apply, val_main_v44_apply]
  refine congrArg _ (funext fun a => Fin.ext ?_)
  unfold shift
  match a with
  | ⟨0, _⟩ => rfl
  | ⟨1, _⟩ => show 1 + h.val = h.val + 1; omega
  | ⟨2, _⟩ => show 1 + w.val = w.val + 1; omega
  | ⟨3, _⟩ => rfl

theorem img12 (x0 : (⟨S4x64x56x56, .f32⟩ : BufTy).Contents (Elt Ideal)) (b : Fin 4) (h w : Fin 56) (o c : Fin 64) :
    val_main_v58 (F := Ideal) x0 (ix5 b h w o c) = val_main_v1 (F := Ideal) x0 (ix4 b (shift h 1) (shift w 2) c) := by
  rw [val_main_v58_apply, val_main_v54_apply, val_main_v53_apply]
  refine congrArg _ (funext fun a => Fin.ext ?_)
  unfold shift
  match a with
  | ⟨0, _⟩ => rfl
  | ⟨1, _⟩ => show 1 + h.val = h.val + 1; omega
  | ⟨2, _⟩ => show 2 + w.val = w.val + 2; omega
  | ⟨3, _⟩ => rfl

theorem img20 (x0 : (⟨S4x64x56x56, .f32⟩ : BufTy).Contents (Elt Ideal)) (b : Fin 4) (h w : Fin 56) (o c : Fin 64) :
    val_main_v71 (F := Ideal) x0 (ix5 b h w o c) = val_main_v1 (F := Ideal) x0 (ix4 b (shift h 2) (shift w 0) c) := by
  rw [val_main_v71_apply, val_main_v67_apply, val_main_v66_apply]
  refine congrArg _ (funext fun a => Fin.ext ?_)
  unfold shift
  match a with
  | ⟨0, _⟩ => rfl
  | ⟨1, _⟩ => show 2 + h.val = h.val + 2; omega
  | ⟨2, _⟩ => rfl
  | ⟨3, _⟩ => rfl

theorem img21 (x0 : (⟨S4x64x56x56, .f32⟩ : BufTy).Contents (Elt Ideal)) (b : Fin 4) (h w : Fin 56) (o c : Fin 64) :
    val_main_v80 (F := Ideal) x0 (ix5 b h w o c) = val_main_v1 (F := Ideal) x0 (ix4 b (shift h 2) (shift w 1) c) := by
  rw [val_main_v80_apply, val_main_v76_apply, val_main_v75_apply]
  refine congrArg _ (funext fun a => Fin.ext ?_)
  unfold shift
  match a with
  | ⟨0, _⟩ => rfl
  | ⟨1, _⟩ => show 2 + h.val = h.val + 2; omega
  | ⟨2, _⟩ => show 1 + w.val = w.val + 1; omega
  | ⟨3, _⟩ => rfl

theorem img22 (x0 : (⟨S4x64x56x56, .f32⟩ : BufTy).Contents (Elt Ideal)) (b : Fin 4) (h w : Fin 56) (o c : Fin 64) :
    val_main_v89 (F := Ideal) x0 (ix5 b h w o c) = val_main_v1 (F := Ideal) x0 (ix4 b (shift h 2) (shift w 2) c) := by
  rw [val_main_v89_apply, val_main_v85_apply, val_main_v84_apply]
  refine congrArg _ (funext fun a => Fin.ext ?_)
  unfold shift
  match a with
  | ⟨0, _⟩ => rfl
  | ⟨1, _⟩ => show 2 + h.val = h.val + 2; omega
  | ⟨2, _⟩ => show 2 + w.val = w.val + 2; omega
  | ⟨3, _⟩ => rfl

/-! ## The weight factor of the offset (kh, kw)

  The 64 × 1 × 1 × 64 cut W[·, kw, kh, ·] of the weights, flattened to a 64 × 64 matrix and repeated over
  the image and the position: at (b, h, w, o, c) it is W[o, kw, kh, c]. The flattening reads the element whose
  row-major position is 64·o + c, that is row (64·o + c) / 64 = o and column (64·o + c) % 64 = c of the cut. -/

theorem wgt00 (x1 : (⟨S64x3x3x64, .f32⟩ : BufTy).Contents (Elt Ideal)) (b : Fin 4) (h w : Fin 56) (o c : Fin 64) :
    val_main_v10 (F := Ideal) x1 (ix5 b h w o c) = x1 (ix4 o (0 : Fin 3) (0 : Fin 3) c) := by
  rw [val_main_v10_apply, val_main_v8_apply, val_main_v7_apply, val_main_v6_apply]
  refine congrArg _ (funext fun a => Fin.ext ?_)
  match a with
  | ⟨0, _⟩ => show (o.val * 64 + c.val) / 64 = o.val; omega
  | ⟨1, _⟩ => rfl
  | ⟨2, _⟩ => rfl
  | ⟨3, _⟩ => show (o.val * 64 + c.val) % 64 = c.val; omega

theorem wgt01 (x1 : (⟨S64x3x3x64, .f32⟩ : BufTy).Contents (Elt Ideal)) (b : Fin 4) (h w : Fin 56) (o c : Fin 64) :
    val_main_v19 (F := Ideal) x1 (ix5 b h w o c) = x1 (ix4 o (1 : Fin 3) (0 : Fin 3) c) := by
  rw [val_main_v19_apply, val_main_v17_apply, val_main_v16_apply, val_main_v15_apply]
  refine congrArg _ (funext fun a => Fin.ext ?_)
  match a with
  | ⟨0, _⟩ => show (o.val * 64 + c.val) / 64 = o.val; omega
  | ⟨1, _⟩ => rfl
  | ⟨2, _⟩ => rfl
  | ⟨3, _⟩ => show (o.val * 64 + c.val) % 64 = c.val; omega

theorem wgt02 (x1 : (⟨S64x3x3x64, .f32⟩ : BufTy).Contents (Elt Ideal)) (b : Fin 4) (h w : Fin 56) (o c : Fin 64) :
    val_main_v28 (F := Ideal) x1 (ix5 b h w o c) = x1 (ix4 o (2 : Fin 3) (0 : Fin 3) c) := by
  rw [val_main_v28_apply, val_main_v26_apply, val_main_v25_apply, val_main_v24_apply]
  refine congrArg _ (funext fun a => Fin.ext ?_)
  match a with
  | ⟨0, _⟩ => show (o.val * 64 + c.val) / 64 = o.val; omega
  | ⟨1, _⟩ => rfl
  | ⟨2, _⟩ => rfl
  | ⟨3, _⟩ => show (o.val * 64 + c.val) % 64 = c.val; omega

theorem wgt10 (x1 : (⟨S64x3x3x64, .f32⟩ : BufTy).Contents (Elt Ideal)) (b : Fin 4) (h w : Fin 56) (o c : Fin 64) :
    val_main_v41 (F := Ideal) x1 (ix5 b h w o c) = x1 (ix4 o (0 : Fin 3) (1 : Fin 3) c) := by
  rw [val_main_v41_apply, val_main_v39_apply, val_main_v38_apply, val_main_v37_apply]
  refine congrArg _ (funext fun a => Fin.ext ?_)
  match a with
  | ⟨0, _⟩ => show (o.val * 64 + c.val) / 64 = o.val; omega
  | ⟨1, _⟩ => rfl
  | ⟨2, _⟩ => rfl
  | ⟨3, _⟩ => show (o.val * 64 + c.val) % 64 = c.val; omega

theorem wgt11 (x1 : (⟨S64x3x3x64, .f32⟩ : BufTy).Contents (Elt Ideal)) (b : Fin 4) (h w : Fin 56) (o c : Fin 64) :
    val_main_v50 (F := Ideal) x1 (ix5 b h w o c) = x1 (ix4 o (1 : Fin 3) (1 : Fin 3) c) := by
  rw [val_main_v50_apply, val_main_v48_apply, val_main_v47_apply, val_main_v46_apply]
  refine congrArg _ (funext fun a => Fin.ext ?_)
  match a with
  | ⟨0, _⟩ => show (o.val * 64 + c.val) / 64 = o.val; omega
  | ⟨1, _⟩ => rfl
  | ⟨2, _⟩ => rfl
  | ⟨3, _⟩ => show (o.val * 64 + c.val) % 64 = c.val; omega

theorem wgt12 (x1 : (⟨S64x3x3x64, .f32⟩ : BufTy).Contents (Elt Ideal)) (b : Fin 4) (h w : Fin 56) (o c : Fin 64) :
    val_main_v59 (F := Ideal) x1 (ix5 b h w o c) = x1 (ix4 o (2 : Fin 3) (1 : Fin 3) c) := by
  rw [val_main_v59_apply, val_main_v57_apply, val_main_v56_apply, val_main_v55_apply]
  refine congrArg _ (funext fun a => Fin.ext ?_)
  match a with
  | ⟨0, _⟩ => show (o.val * 64 + c.val) / 64 = o.val; omega
  | ⟨1, _⟩ => rfl
  | ⟨2, _⟩ => rfl
  | ⟨3, _⟩ => show (o.val * 64 + c.val) % 64 = c.val; omega

theorem wgt20 (x1 : (⟨S64x3x3x64, .f32⟩ : BufTy).Contents (Elt Ideal)) (b : Fin 4) (h w : Fin 56) (o c : Fin 64) :
    val_main_v72 (F := Ideal) x1 (ix5 b h w o c) = x1 (ix4 o (0 : Fin 3) (2 : Fin 3) c) := by
  rw [val_main_v72_apply, val_main_v70_apply, val_main_v69_apply, val_main_v68_apply]
  refine congrArg _ (funext fun a => Fin.ext ?_)
  match a with
  | ⟨0, _⟩ => show (o.val * 64 + c.val) / 64 = o.val; omega
  | ⟨1, _⟩ => rfl
  | ⟨2, _⟩ => rfl
  | ⟨3, _⟩ => show (o.val * 64 + c.val) % 64 = c.val; omega

theorem wgt21 (x1 : (⟨S64x3x3x64, .f32⟩ : BufTy).Contents (Elt Ideal)) (b : Fin 4) (h w : Fin 56) (o c : Fin 64) :
    val_main_v81 (F := Ideal) x1 (ix5 b h w o c) = x1 (ix4 o (1 : Fin 3) (2 : Fin 3) c) := by
  rw [val_main_v81_apply, val_main_v79_apply, val_main_v78_apply, val_main_v77_apply]
  refine congrArg _ (funext fun a => Fin.ext ?_)
  match a with
  | ⟨0, _⟩ => show (o.val * 64 + c.val) / 64 = o.val; omega
  | ⟨1, _⟩ => rfl
  | ⟨2, _⟩ => rfl
  | ⟨3, _⟩ => show (o.val * 64 + c.val) % 64 = c.val; omega

theorem wgt22 (x1 : (⟨S64x3x3x64, .f32⟩ : BufTy).Contents (Elt Ideal)) (b : Fin 4) (h w : Fin 56) (o c : Fin 64) :
    val_main_v90 (F := Ideal) x1 (ix5 b h w o c) = x1 (ix4 o (2 : Fin 3) (2 : Fin 3) c) := by
  rw [val_main_v90_apply, val_main_v88_apply, val_main_v87_apply, val_main_v86_apply]
  refine congrArg _ (funext fun a => Fin.ext ?_)
  match a with
  | ⟨0, _⟩ => show (o.val * 64 + c.val) / 64 = o.val; omega
  | ⟨1, _⟩ => rfl
  | ⟨2, _⟩ => rfl
  | ⟨3, _⟩ => show (o.val * 64 + c.val) % 64 = c.val; omega

/-! ## One vote

  For a row offset kh the three products along the row are added, left to right, to a zero, and the sign is
  taken: at (b, h, w, o, c) this is the sign of the specification's three-term sum, once the zero is dropped. -/

theorem vote0 (x0 : (⟨S4x64x56x56, .f32⟩ : BufTy).Contents (Elt Ideal)) (x1 : (⟨S64x3x3x64, .f32⟩ : BufTy).Contents (Elt Ideal))
    (b : Fin 4) (o : Fin 64) (h w : Fin 56) (c : Fin 64) :
    val_main_v31 (F := Ideal) x0 x1 (ix5 b h w o c)
      = Ideal.sign (taps (val_main_v1 (F := Ideal) x0) x1 b o h w 0 c) := by
  rw [val_main_v31_apply, val_main_v30_apply, val_main_v21_apply, val_main_v12_apply, val_main_v11_apply,
    val_main_v20_apply, val_main_v29_apply, val_main_v3_apply, val_main_cst_0_apply,
    img00, wgt00, img01, wgt01, img02, wgt02]
  simp only [Ideal.hostUnary_sign_def, Ideal.addf_def, Ideal.mulf_def, Ideal.ofBits_def, Ideal.ofBits_zero_f32, zero_add]
  rfl

theorem vote1 (x0 : (⟨S4x64x56x56, .f32⟩ : BufTy).Contents (Elt Ideal)) (x1 : (⟨S64x3x3x64, .f32⟩ : BufTy).Contents (Elt Ideal))
    (b : Fin 4) (o : Fin 64) (h w : Fin 56) (c : Fin 64) :
    val_main_v62 (F := Ideal) x0 x1 (ix5 b h w o c)
      = Ideal.sign (taps (val_main_v1 (F := Ideal) x0) x1 b o h w 1 c) := by
  rw [val_main_v62_apply, val_main_v61_apply, val_main_v52_apply, val_main_v43_apply, val_main_v42_apply,
    val_main_v51_apply, val_main_v60_apply, val_main_v34_apply, val_main_cst_2_apply,
    img10, wgt10, img11, wgt11, img12, wgt12]
  simp only [Ideal.hostUnary_sign_def, Ideal.addf_def, Ideal.mulf_def, Ideal.ofBits_def, Ideal.ofBits_zero_f32, zero_add]
  rfl

theorem vote2 (x0 : (⟨S4x64x56x56, .f32⟩ : BufTy).Contents (Elt Ideal)) (x1 : (⟨S64x3x3x64, .f32⟩ : BufTy).Contents (Elt Ideal))
    (b : Fin 4) (o : Fin 64) (h w : Fin 56) (c : Fin 64) :
    val_main_v93 (F := Ideal) x0 x1 (ix5 b h w o c)
      = Ideal.sign (taps (val_main_v1 (F := Ideal) x0) x1 b o h w 2 c) := by
  rw [val_main_v93_apply, val_main_v92_apply, val_main_v83_apply, val_main_v74_apply, val_main_v73_apply,
    val_main_v82_apply, val_main_v91_apply, val_main_v65_apply, val_main_cst_4_apply,
    img20, wgt20, img21, wgt21, img22, wgt22]
  simp only [Ideal.hostUnary_sign_def, Ideal.addf_def, Ideal.mulf_def, Ideal.ofBits_def, Ideal.ofBits_zero_f32, zero_add]
  rfl

/-! ## The votes of one row offset

  The signs are summed over the channel into a zero: the specification's count of the votes. -/

theorem votes0 (x0 : (⟨S4x64x56x56, .f32⟩ : BufTy).Contents (Elt Ideal)) (x1 : (⟨S64x3x3x64, .f32⟩ : BufTy).Contents (Elt Ideal))
    (b : Fin 4) (o : Fin 64) (h w : Fin 56) :
    val_main_v32 (F := Ideal) x0 x1 (idx_main_v96 (ix4 b o h w))
      = votes (val_main_v1 (F := Ideal) x0) x1 b o h w 0 := by
  rw [val_main_v32_apply, val_main_cst_1_apply, Ideal.ofBits_def, Ideal.ofBits_zero_f32, zero_add]
  unfold votes
  exact Finset.sum_congr rfl fun c _ => by rw [sumIdx0, vote0]

theorem votes1 (x0 : (⟨S4x64x56x56, .f32⟩ : BufTy).Contents (Elt Ideal)) (x1 : (⟨S64x3x3x64, .f32⟩ : BufTy).Contents (Elt Ideal))
    (b : Fin 4) (o : Fin 64) (h w : Fin 56) :
    val_main_v63 (F := Ideal) x0 x1 (idx_main_v96 (ix4 b o h w))
      = votes (val_main_v1 (F := Ideal) x0) x1 b o h w 1 := by
  rw [val_main_v63_apply, val_main_cst_3_apply, Ideal.ofBits_def, Ideal.ofBits_zero_f32, zero_add]
  unfold votes
  exact Finset.sum_congr rfl fun c _ => by rw [sumIdx1, vote1]

theorem votes2 (x0 : (⟨S4x64x56x56, .f32⟩ : BufTy).Contents (Elt Ideal)) (x1 : (⟨S64x3x3x64, .f32⟩ : BufTy).Contents (Elt Ideal))
    (b : Fin 4) (o : Fin 64) (h w : Fin 56) :
    val_main_v94 (F := Ideal) x0 x1 (idx_main_v96 (ix4 b o h w))
      = votes (val_main_v1 (F := Ideal) x0) x1 b o h w 2 := by
  rw [val_main_v94_apply, val_main_cst_5_apply, Ideal.ofBits_def, Ideal.ofBits_zero_f32, zero_add]
  unfold votes
  exact Finset.sum_congr rfl fun c _ => by rw [sumIdx2, vote2]

/-! ## The result

  The three counts are added, kh = 0, 1, 2 in this order, to a zero, and the output channel moves back to
  the second axis. -/

/-- The reference's result, at the extended reals, is the specification of the padded image and the weights. -/
theorem result_eq (x0 : (⟨S4x64x56x56, .f32⟩ : BufTy).Contents (Elt Ideal)) (x1 : (⟨S64x3x3x64, .f32⟩ : BufTy).Contents (Elt Ideal)) :
    val_main_v96 (F := Ideal) x0 x1 = Cert.Maj3.maj3 (val_main_v1 (F := Ideal) x0) x1 := by
  funext i
  obtain ⟨b, o, h, w, rfl⟩ : ∃ (b : Fin 4) (o : Fin 64) (h w : Fin 56), i = ix4 b o h w :=
    ⟨i 0, i 1, i 2, i 3, eq_ix4 i⟩
  rw [Cert.Maj3.maj3_ix4, val_main_v96_apply, val_main_v95_apply, val_main_v64_apply, val_main_v33_apply,
    val_main_v2_apply, val_main_cst_apply, votes0, votes1, votes2]
  simp only [Ideal.addf_def, Ideal.ofBits_def, Ideal.ofBits_zero_f32, zero_add]
  rfl

end Cert.ReferenceIdeal.RefValue

end
-- ==== Proof.lean ====
/-
  The kernel against its reference: a "majority of three" convolution.

  Both programs take an image x[b, c, h, w] (4 × 64 × 56 × 56) and weights W[o, kw, kh, c] (64 × 3 × 3 × 64), move the
  channel axis of the image last and surround each 56 × 56 plane by a ring of zeros (the padded image P), and
  compute

      out[b, o, h, w] = Σ_{kh < 3} Σ_{c < 64} sign ( Σ_{kw < 3} P[b, h + kh, w + kw, c] · W[o, kw, kh, c] ).

  The reference does so with whole-array operations over a five-axis index (b, h, w, o, c) and moves the output
  channel back at the end; the kernel does so block by block, one image and sixteen output channels per grid point,
  one output channel per trip of an inner loop, the channel sum as a lane reduction, and the sign as the select
  `|v| > 0 ? (v < 0 ? -1 : 1) : v`, which on the extended reals is the sign function (±1 at ±∞, 0 at 0). The two
  sides add their terms in the same order, so they meet at one function of P and W (Proof/Spec.lean) with no law
  beyond 0 + x = x, and the hypothesis that the inputs are finite is not used.

  The frames of the two kernel programs and the kernel's run are the generated ones; the reference's frame is its
  generated run with the result dropped. The idealized kernel differs from the kernel in three rewrites of a
  sign-bit copy into a comparison with zero, each restated by its rule.
-/
import proofs.«123025_j1580547975210_2_alg».proof.Defs
import proofs.«123025_j1580547975210_2_alg».proof.Proof.Gen.Kernel
import proofs.«123025_j1580547975210_2_alg».proof.Proof.Gen.Kernel.Frame
import proofs.«123025_j1580547975210_2_alg».proof.Proof.Gen.KernelIdeal
import proofs.«123025_j1580547975210_2_alg».proof.Proof.Gen.KernelIdeal.Frame
import proofs.«123025_j1580547975210_2_alg».proof.Proof.Gen.KernelIdeal.Value
import proofs.«123025_j1580547975210_2_alg».proof.Proof.Gen.ReferenceIdeal
import proofs.«123025_j1580547975210_2_alg».proof.Proof.Gen.ReferenceIdeal.Run
import proofs.«123025_j1580547975210_2_alg».proof.Proof.Gen.ReferenceIdeal.Read
import proofs.«123025_j1580547975210_2_alg».proof.Proof.Gen.Pre_finite_inputs
import proofs.«123025_j1580547975210_2_alg».proof.Proof.KernelArray
import proofs.«123025_j1580547975210_2_alg».proof.Proof.RefValue
import Idealize.ShloMosaic.Adequacy
import Idealize.ShloMosaic.Init

noncomputable section

namespace Cert.Proof

open Idealize.ShloMosaic Idealize.ShloMosaic.TcCoe Idealize.SL.Sem

/-- The kernel's program runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments alone: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The three sign-bit copies (one per row offset of the window) the idealization prints as comparisons with zero. -/
theorem preserves : Cert.preserves_Kernel_KernelIdeal :=
  ⟨IdealRules.sign_bit.statement Cert.KernelIdeal.S56x56x64 .f32,
    IdealRules.sign_bit.statement Cert.KernelIdeal.S56x56x64 .f32,
    IdealRules.sign_bit.statement Cert.KernelIdeal.S56x56x64 .f32⟩

/-- On the extended reals both programs end with the same result: the specification of the padded image and the
    weights. The kernel's padded image and the reference's are the same two host operations of the same argument. -/
theorem algebraic : Cert.algebraic_KernelIdeal_ReferenceIdeal := by
  intro m ρ m' ρ' _ hagree
  refine ⟨fun c => Cert.Maj3.maj3
      (Cert.KernelIdeal.Arr.padded (m ((c.tc : Thread Cert.KernelIdeal.nD Cert.KernelIdeal.τ).loc Cert.KernelIdeal.main_arg0)))
      (m ((c.tc : Thread Cert.KernelIdeal.nD Cert.KernelIdeal.τ).loc Cert.KernelIdeal.main_arg1)),
    Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v96_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
